-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S1x128x256 : Shape := ⟨3, ![1, 128, 256]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S1x128x256 : S_.BroadcastsInDim S1x128x256 (![] : Fin 0 → Fin S1x128x256.rank)
  reducesTo_S1x128x256_S_d0_1_2 : S1x128x256.ReducesTo [0, 1, 2] S_

variable [Facts]

def fn {F : FTy → Type} [FloatOps F] (main_arg0 : FVec F S64x2048x256 .f32) (main_arg1 : FVec F S1x128x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S1x128x256 .f32 := Host.absf main_arg1
  let main_cst_0 : FVec F S_ .f32 := constant S_ .f32 0x7F800000#32
  let main_v5 : FVec F S1x128x256 .f32 := broadcastInDim S1x128x256 ![] bcast_S_S1x128x256 main_cst_0
  let main_v6 : IVec S1x128x256 1 := cmpf .olt main_v4 main_v5
  let main_c_1 : IVec S_ 1 := constantI S_ 1 1#1
  let main_v7 : IVec S_ 1 := (fun x v => Host.reduce IntOp.andi x v reducesTo_S1x128x256_S_d0_1_2 h_S_) main_v6 main_c_1
  let main_v8 : IVec S_ 1 := andi main_v3 main_v7
  main_v8
-- ==== Kernel.lean ====
abbrev S64x2048x256 : Shape := ⟨3, ![64, 2048, 256]⟩
abbrev S1x128x256 : Shape := ⟨3, ![1, 128, 256]⟩
abbrev S128x256 : Shape := ⟨2, ![128, 256]⟩
abbrev S256x128 : Shape := ⟨2, ![256, 128]⟩
abbrev S64x4096 : Shape := ⟨2, ![64, 4096]⟩
abbrev S16x512x256 : Shape := ⟨3, ![16, 512, 256]⟩
abbrev S16x4096 : Shape := ⟨2, ![16, 4096]⟩
abbrev S1x512 : Shape := ⟨2, ![1, 512]⟩
abbrev S1x512x256 : Shape := ⟨3, ![1, 512, 256]⟩
abbrev S512x256 : Shape := ⟨2, ![512, 256]⟩
abbrev S512x128 : Shape := ⟨2, ![512, 128]⟩
abbrev S512x4096 : Shape := ⟨2, ![512, 4096]⟩
abbrev S1x4096 : Shape := ⟨2, ![1, 4096]⟩
abbrev S4096 : Shape := ⟨1, ![4096]⟩
abbrev S16x32x128 : Shape := ⟨3, ![16, 32, 128]⟩
abbrev S16x31x128 : Shape := ⟨3, ![16, 31, 128]⟩
abbrev S16x1x128 : Shape := ⟨3, ![16, 1, 128]⟩
abbrev S16x128x32 : Shape := ⟨3, ![16, 128, 32]⟩

abbrev nBuf : Space → Nat
  | .hbm => 5
  | .vmem => 6
  | .smem => 0
  | _ => 0

abbrev bufTy : (tb : Table) → Fin (tcTables nBuf tb) → BufTy
  | .hbm, ⟨0, _⟩ => ⟨S64x2048x256, .f32⟩
  | .hbm, ⟨1, _⟩ => ⟨S1x128x256, .f32⟩
  | .hbm, ⟨2, _⟩ => ⟨S128x256, .f32⟩
  | .hbm, ⟨3, _⟩ => ⟨S256x128, .f32⟩
  | .hbm, ⟨4, _⟩ => ⟨S64x4096, .f32⟩
  | .local _ .vmem, ⟨0, _⟩ => ⟨S16x512x256, .f32⟩
  | .local _ .vmem, ⟨1, _⟩ => ⟨S16x512x256, .f32⟩
  | .local _ .vmem, ⟨2, _⟩ => ⟨S256x128, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v2774 : BitVec 1 := Scalar.cmpi .eq arg1 c3_i32
  let v2775 : BitVec 32 := Scalar.extui v2774
  let c0_i32_643 : BitVec 32 := 0#32
  let v2776 : BitVec 1 := Scalar.cmpi .ne v2775 c0_i32_643
  v2776

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1x128x256_S128x256 : S1x128x256.ShapeCasts S128x256
  transposes_S128x256_S256x128_1_0 : S128x256.Transposes [1, 0] S256x128
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S16x512x256_S1x512x256_0_0_0 : ∀ a, (![0, 0, 0] : Fin 3 → Nat) a + S1x512x256.size a ≤ S16x512x256.size a
  h_S1x512x256 : 0 < S1x512x256.numel
  shapeCasts_S1x512x256_S512x256 : S1x512x256.ShapeCasts S512x256
  natLt_1_32 : 1 < 32
  bitsLt_bf16_f32 : FTy.bits .bf16 < FTy.bits .f32
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x4096_d1 : Shape.Concatenates [S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128] S512x4096 1
  inb_S16x4096_S1x4096_0_0 : ∀ a, (![0, 0] : Fin 2 → Nat) a + S1x4096.size a ≤ S16x4096.size a
  h_S1x4096 : 0 < S1x4096.numel
  shapeCasts_S1x4096_S4096 : S1x4096.ShapeCasts S4096
  shapeCasts_S4096_S1x4096 : S4096.ShapeCasts S1x4096
  inb_S16x512x256_S1x512x256_1_0_0 : ∀ a, (![1, 0, 0] : Fin 3 → Nat) a + S1x512x256.size a ≤ S16x512x256.size a
  inb_S16x4096_S1x4096_1_0 : ∀ a, (![1, 0] : Fin 2 → Nat) a + S1x4096.size a ≤ S16x4096.size a
  inb_S16x512x256_S1x512x256_2_0_0 : ∀ a, (![2, 0, 0] : Fin 3 → Nat) a + S1x512x256.size a ≤ S16x512x256.size a
  inb_S16x4096_S1x4096_2_0 : ∀ a, (![2, 0] : Fin 2 → Nat) a + S1x4096.size a ≤ S16x4096.size a
  inb_S16x512x256_S1x512x256_3_0_0 : ∀ a, (![3, 0, 0] : Fin 3 → Nat) a + S1x512x256.size a ≤ S16x512x256.size a
  inb_S16x4096_S1x4096_3_0 : ∀ a, (![3, 0] : Fin 2 → Nat) a + S1x4096.size a ≤ S16x4096.size a
  inb_S16x512x256_S1x512x256_4_0_0 : ∀ a, (![4, 0, 0] : Fin 3 → Nat) a + S1x512x256.size a ≤ S16x512x256.size a
  inb_S16x4096_S1x4096_4_0 : ∀ a, (![4, 0] : Fin 2 → Nat) a + S1x4096.size a ≤ S16x4096.size a
  inb_S16x512x256_S1x512x256_5_0_0 : ∀ a, (![5, 0, 0] : Fin 3 → Nat) a + S1x512x256.size a ≤ S16x512x256.size a
  inb_S16x4096_S1x4096_5_0 : ∀ a, (![5, 0] : Fin 2 → Nat) a + S1x4096.size a ≤ S16x4096.size a
  inb_S16x512x256_S1x512x256_6_0_0 : ∀ a, (![6, 0, 0] : Fin 3 → Nat) a + S1x512x256.size a ≤ S16x512x256.size a
  inb_S16x4096_S1x4096_6_0 : ∀ a, (![6, 0] : Fin 2 → Nat) a + S1x4096.size a ≤ S16x4096.size a
  inb_S16x512x256_S1x512x256_7_0_0 : ∀ a, (![7, 0, 0] : Fin 3 → Nat) a + S1x512x256.size a ≤ S16x512x256.size a
  inb_S16x4096_S1x4096_7_0 : ∀ a, (![7, 0] : Fin 2 → Nat) a + S1x4096.size a ≤ S16x4096.size a
  inb_S16x512x256_S1x512x256_8_0_0 : ∀ a, (![8, 0, 0] : Fin 3 → Nat) a + S1x512x256.size a ≤ S16x512x256.size a
  inb_S16x4096_S1x4096_8_0 : ∀ a, (![8, 0] : Fin 2 → Nat) a + S1x4096.size a ≤ S16x4096.size a
  inb_S16x512x256_S1x512x256_9_0_0 : ∀ a, (![9, 0, 0] : Fin 3 → Nat) a + S1x512x256.size a ≤ S16x512x256.size a
  inb_S16x4096_S1x4096_9_0 : ∀ a, (![9, 0] : Fin 2 → Nat) a + S1x4096.size a ≤ S16x4096.size a
  inb_S16x512x256_S1x512x256_10_0_0 : ∀ a, (![10, 0, 0] : Fin 3 → Nat) a + S1x512x256.size a ≤ S16x512x256.size a
  inb_S16x4096_S1x4096_10_0 : ∀ a, (![10, 0] : Fin 2 → Nat) a + S1x4096.size a ≤ S16x4096.size a
  inb_S16x512x256_S1x512x256_11_0_0 : ∀ a, (![11, 0, 0] : Fin 3 → Nat) a + S1x512x256.size a ≤ S16x512x256.size a
  inb_S16x4096_S1x4096_11_0 : ∀ a, (![11, 0] : Fin 2 → Nat) a + S1x4096.size a ≤ S16x4096.size a
  inb_S16x512x256_S1x512x256_12_0_0 : ∀ a, (![12, 0, 0] : Fin 3 → Nat) a + S1x512x256.size a ≤ S16x512x256.size a
  inb_S16x4096_S1x4096_12_0 : ∀ a, (![12, 0] : Fin 2 → Nat) a + S1x4096.size a ≤ S16x4096.size a
  inb_S16x512x256_S1x512x256_13_0_0 : ∀ a, (![13, 0, 0] : Fin 3 → Nat) a + S1x512x256.size a ≤ S16x512x256.size a
  inb_S16x4096_S1x4096_13_0 : ∀ a, (![13, 0] : Fin 2 → Nat) a + S1x4096.size a ≤ S16x4096.size a
  inb_S16x512x256_S1x512x256_14_0_0 : ∀ a, (![14, 0, 0] : Fin 3 → Nat) a + S1x512x256.size a ≤ S16x512x256.size a
  inb_S16x4096_S1x4096_14_0 : ∀ a, (![14, 0] : Fin 2 → Nat) a + S1x4096.size a ≤ S16x4096.size a
  inb_S16x512x256_S1x512x256_15_0_0 : ∀ a, (![15, 0, 0] : Fin 3 → Nat) a + S1x512x256.size a ≤ S16x512x256.size a
  inb_S16x4096_S1x4096_15_0 : ∀ a, (![15, 0] : Fin 2 → Nat) a + S1x4096.size a ≤ S16x4096.size a
  shapeCasts_S16x4096_S16x32x128 : S16x4096.ShapeCasts S16x32x128
  slices_S16x32x128_o0_0_0_S16x31x128 : S16x32x128.Slices ![0, 0, 0] S16x31x128
  slices_S16x32x128_o0_1_0_S16x31x128 : S16x32x128.Slices ![0, 1, 0] S16x31x128
  slices_S16x32x128_o0_31_0_S16x1x128 : S16x32x128.Slices ![0, 31, 0] S16x1x128
  concatenates_S16x31x128_S16x1x128_S16x32x128_d1 : Shape.Concatenates [S16x31x128, S16x1x128] S16x32x128 1
  transposes_S16x32x128_p0_2_1_S16x128x32 : S16x32x128.Transposes [0, 2, 1] S16x128x32
  shapeCasts_S16x128x32_S16x4096 : S16x128x32.ShapeCasts S16x4096
  dot_S512x256_S256x128_S512x128_1_0_0_1_n_n_wf : DotDims.WF S512x256 S256x128 S512x128 [1] [0] [0] [1] [] []
  dot_S1x512_S512x4096_S1x4096_1_0_0_1_n_n_wf : DotDims.WF S1x512 S512x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S64x2048x256.size a
  hwx0_0 : ∀ i : grid0.Coords, EltTy.bits .f32 = 32 ∨ (Rect.block (s := S64x2048x256) S16x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S64x4096.size a
  hwx0_2 : ∀ i : grid0.Coords, EltTy.bits .f32 = 32 ∨ (Rect.block (s := S64x4096) S16x4096.size (cc0_transform_2 i) (hinb0_2 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S1x512_S512x4096_S1x4096_1_0_0_1_n_n : DotDims S1x512 S512x4096 S1x4096 where
  lhsContracting := [1]
  rhsContracting := [0]
  lhsNonContracting := [0]
  rhsNonContracting := [1]
  lhsBatch := []
  rhsBatch := []
  wf := dot_S1x512_S512x4096_S1x4096_1_0_0_1_n_n_wf

abbrev win0_0 : Pipeline.Window sig grid0 :=
  Pipeline.Window.ofSpec (Memref.whole main_arg0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2048x256 : Shape := ⟨3, ![64, 2048, 256]⟩
abbrev S1x128x256 : Shape := ⟨3, ![1, 128, 256]⟩
abbrev S128x256 : Shape := ⟨2, ![128, 256]⟩
abbrev S64x2048x128 : Shape := ⟨3, ![64, 2048, 128]⟩
abbrev S_ : Shape := ⟨0, ![]⟩
abbrev S64 : Shape := ⟨1, ![64]⟩
abbrev S64x1x1 : Shape := ⟨3, ![64, 1, 1]⟩
abbrev S128 : Shape := ⟨1, ![128]⟩
abbrev S1x1x128 : Shape := ⟨3, ![1, 1, 128]⟩
abbrev S64x128x32 : Shape := ⟨3, ![64, 128, 32]⟩
abbrev S64x2048x128x1 : Shape := ⟨4, ![64, 2048, 128, 1]⟩
abbrev S64x2048x128x3 : Shape := ⟨4, ![64, 2048, 128, 3]⟩
abbrev S64x4096 : Shape := ⟨2, ![64, 4096]⟩

abbrev nBuf : Space → Nat
  | .hbm => 64
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S1x128x256, .f32⟩
  | .hbm, ⟨2, _⟩ => ⟨S128x256, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S_, .f32⟩
  | .hbm, ⟨7, _⟩ => ⟨S64x2048x128, .f32⟩
  | .hbm, ⟨8, _⟩ => ⟨S64x2048x128, .f32⟩
  | .hbm, ⟨9, _⟩ => ⟨S_, .f32⟩
  | .hbm, ⟨10, _⟩ => ⟨S64x2048x128, .f32⟩
  | .hbm, ⟨11, _⟩ => ⟨S64x2048x128, .f32⟩
  | .hbm, ⟨12, _⟩ => ⟨S_, .f32⟩
  | .hbm, ⟨13, _⟩ => ⟨S64x2048x128, .f32⟩
  | .hbm, ⟨14, _⟩ => ⟨S64x2048x128, .f32⟩
  | .hbm, ⟨15, _⟩ => ⟨S64x2048x128, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64x2048x128, .i32⟩
  | .hbm, ⟨20, _⟩ => ⟨S64x2048x128, .i32⟩
  | .hbm, ⟨21, _⟩ => ⟨S_, .i32⟩
  | .hbm, ⟨22, _⟩ => ⟨S64x2048x128, .i32⟩
  | .hbm, ⟨23, _⟩ => ⟨S64x2048x128, .i32⟩
  | .hbm, ⟨24, _⟩ => ⟨S64, .i32⟩
  | .hbm, ⟨25, _⟩ => ⟨S64x1x1, .i32⟩
  | .hbm, ⟨26, _⟩ => ⟨S128, .i32⟩
  | .hbm, ⟨27, _⟩ => ⟨S1x1x128, .i32⟩
  | .hbm, ⟨28, _⟩ => ⟨S_, .f32⟩
  | .hbm, ⟨29, _⟩ => ⟨S64x128x32, .f32⟩
  | .hbm, ⟨30, _⟩ => ⟨S_, .i32⟩
  | .hbm, ⟨31, _⟩ => ⟨S64x1x1, .i32⟩
  | .hbm, ⟨32, _⟩ => ⟨S64x1x1, .i1⟩
  | .hbm, ⟨33, _⟩ => ⟨S_, .i32⟩
  | .hbm, ⟨34, _⟩ => ⟨S64x1x1, .i32⟩
  | .hbm, ⟨35, _⟩ => ⟨S64x1x1, .i32⟩
  | .hbm, ⟨36, _⟩ => ⟨S64x1x1, .i32⟩
  | .hbm, ⟨37, _⟩ => ⟨S_, .i32⟩
  | .hbm, ⟨38, _⟩ => ⟨S1x1x128, .i32⟩
  | .hbm, ⟨39, _⟩ => ⟨S1x1x128, .i1⟩
  | .hbm, ⟨40, _⟩ => ⟨S_, .i32⟩
  | .hbm, ⟨41, _⟩ => ⟨S1x1x128, .i32⟩
  | .hbm, ⟨42, _⟩ => ⟨S1x1x128, .i32⟩
  | .hbm, ⟨43, _⟩ => ⟨S1x1x128, .i32⟩
  | .hbm, ⟨44, _⟩ => ⟨S_, .i32⟩
  | .hbm, ⟨45, _⟩ => ⟨S64x2048x128, .i32⟩
  | .hbm, ⟨46, _⟩ => ⟨S64x2048x128, .i1⟩
  | .hbm, ⟨47, _⟩ => ⟨S_, .i32⟩
  | .hbm, ⟨48, _⟩ => ⟨S64x2048x128, .i32⟩
  | .hbm, ⟨49, _⟩ => ⟨S64x2048x128, .i32⟩
  | .hbm, ⟨50, _⟩ => ⟨S64x2048x128, .i32⟩
  | .hbm, ⟨51, _⟩ => ⟨S64x2048x128, .i32⟩
  | .hbm, ⟨52, _⟩ => ⟨S64x2048x128, .i32⟩
  | .hbm, ⟨53, _⟩ => ⟨S64x2048x128x1, .i32⟩
  | .hbm, ⟨54, _⟩ => ⟨S64x2048x128x1, .i32⟩
  | .hbm, ⟨55, _⟩ => ⟨S64x2048x128x1, .i32⟩
  | .hbm, ⟨56, _⟩ => ⟨S64x2048x128x3, .i32⟩
  | .hbm, ⟨57, _⟩ => ⟨S_, .f32⟩
  | .hbm, ⟨58, _⟩ => ⟨S64x2048x128, .f32⟩
  | .hbm, ⟨59, _⟩ => ⟨S64x128x32, .f32⟩
  | .hbm, ⟨60, _⟩ => ⟨S_, .f32⟩
  | .hbm, ⟨61, _⟩ => ⟨S64x128x32, .f32⟩
  | .hbm, ⟨62, _⟩ => ⟨S64x128x32, .f32⟩
  | .hbm, ⟨63, _⟩ => ⟨S64x4096, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  shapeCasts_S1x128x256_S128x256 : S1x128x256.ShapeCasts S128x256
  bcast_S_S64x2048x128 : S_.BroadcastsInDim S64x2048x128 (![] : Fin 0 → Fin S64x2048x128.rank)
  bcast_S64_S64x1x1_0 : S64.BroadcastsInDim S64x1x1 (![0] : Fin 1 → Fin S64x1x1.rank)
  bcast_S128_S1x1x128_2 : S128.BroadcastsInDim S1x1x128 (![2] : Fin 1 → Fin S1x1x128.rank)
  bcast_S_S64x128x32 : S_.BroadcastsInDim S64x128x32 (![] : Fin 0 → Fin S64x128x32.rank)
  bcast_S_S64x1x1 : S_.BroadcastsInDim S64x1x1 (![] : Fin 0 → Fin S64x1x1.rank)
  bcast_S_S1x1x128 : S_.BroadcastsInDim S1x1x128 (![] : Fin 0 → Fin S1x1x128.rank)
  bcast_S64x1x1_S64x2048x128_0_1_2 : S64x1x1.BroadcastsInDim S64x2048x128 (![0, 1, 2] : Fin 3 → Fin S64x2048x128.rank)
  bcast_S1x1x128_S64x2048x128_0_1_2 : S1x1x128.BroadcastsInDim S64x2048x128 (![0, 1, 2] : Fin 3 → Fin S64x2048x128.rank)
  bcast_S64x2048x128_S64x2048x128x1_0_1_2 : S64x2048x128.BroadcastsInDim S64x2048x128x1 (![0, 1, 2] : Fin 3 → Fin S64x2048x128x1.rank)
  concatenates_S64x2048x128x1_S64x2048x128x1_S64x2048x128x1_S64x2048x128x3_d3 : Shape.Concatenates [S64x2048x128x1, S64x2048x128x1, S64x2048x128x1] S64x2048x128x3 3
  shapeCasts_S64x128x32_S64x4096 : S64x128x32.ShapeCasts S64x4096
  dot_S64x2048x256_S128x256_S64x2048x128_2_1_01_0_n_n_wf : DotDims.WF S64x2048x256 S128x256 S64x2048x128 [2] [1] [0, 1] [0] [] []
  scatter_S64x128x32_S64x2048x128x3_S64x2048x128_n_012_012_3_wf : ScatterDims.WF S64x128x32 S64x2048x128x3 S64x2048x128 [] [0, 1, 2] [0, 1, 2] 3

variable [Facts₀]

def dot_S64x2048x256_S128x256_S64x2048x128_2_1_01_0_n_n : DotDims S64x2048x256 S128x256 S64x2048x128 where
  lhsContracting := [2]
  rhsContracting := [1]
  lhsNonContracting := [0, 1]
  rhsNonContracting := [0]
  lhsBatch := []
  rhsBatch := []
  wf := dot_S64x2048x256_S128x256_S64x2048x128_2_1_01_0_n_n_wf
def scatter_S64x128x32_S64x2048x128x3_S64x2048x128_n_012_012_3 : ScatterDims S64x128x32 S64x2048x128x3 S64x2048x128 where
  updateWindowDims := []
  insertedWindowDims := [0, 1, 2]
  scatterDimsToOperandDims := [0, 1, 2]
  indexVectorDim := 3
  wf := scatter_S64x128x32_S64x2048x128x3_S64x2048x128_n_012_012_3_wf

class Facts : Prop extends Facts₀ where

variable [Facts]
-- ==== Proof.Binning.lean ====
/-
  Histogram binning on the reals, and its two spellings.

  A sample `r ∈ [0, 1]` falls in bin `min ⌊32 r⌋ 31` of 32 uniform bins (the last bin closed at 1).
  The same bin is read off the 32 cumulative tests `k / 32 ≤ r`: for `k < 31` the sample is in bin `k`
  exactly when test `k` holds and test `k + 1` fails, and it is in bin 31 exactly when test 31 holds.
  So a histogram is the difference of consecutive cumulative counts, the last cumulative count kept as it is.
  Also here: the logistic function takes every extended real to a real in `[0, 1]`, and truncating
  `32 r` to a 32-bit integer gives `⌊32 r⌋` there.
-/
import Idealize.ShloMosaic.PureOps.Ideal

noncomputable section

namespace Cert.Hist

open Idealize.ShloMosaic

/-- The bin of a sample: `⌊32 r⌋`, capped at the last bin. -/
def binOf (r : ℝ) : ℕ := min ⌊32 * r⌋₊ 31

/-- The cumulative test `k / 32 ≤ r`, as the number 1 or 0. -/
def geInd (k : ℕ) (r : ℝ) : ℝ := if (k : ℝ) / 32 ≤ r then 1 else 0

/-- Membership in bin `k`, as the number 1 or 0. -/
def binInd (k : ℕ) (r : ℝ) : ℝ := if binOf r = k then 1 else 0

/-- The cumulative test compares `k` with `⌊32 r⌋`. -/
theorem geInd_eq (k : ℕ) (r : ℝ) (hr : 0 ≤ r) : geInd k r = if k ≤ ⌊32 * r⌋₊ then 1 else 0 := by
  unfold geInd
  have h : ((k : ℝ) / 32 ≤ r) ↔ k ≤ ⌊32 * r⌋₊ := by
    rw [Nat.le_floor_iff (by positivity), div_le_iff₀ (by norm_num : (0 : ℝ) < 32)]
    constructor <;> intro h <;> linarith
  simp only [h]

/-- Below the last bin, membership is the difference of two consecutive cumulative tests. -/
theorem geInd_sub (k : ℕ) (hk : k < 31) (r : ℝ) (hr : 0 ≤ r) : geInd k r - geInd (k + 1) r = binInd k r := by
  rw [geInd_eq k r hr, geInd_eq (k + 1) r hr]
  unfold binInd binOf
  generalize ⌊32 * r⌋₊ = N
  split_ifs <;> first | (exfalso; omega) | norm_num

/-- Membership in the last bin is the last cumulative test. -/
theorem geInd_last (r : ℝ) (hr : 0 ≤ r) : geInd 31 r = binInd 31 r := by
  rw [geInd_eq 31 r hr]
  unfold binInd binOf
  generalize ⌊32 * r⌋₊ = N
  split_ifs <;> first | (exfalso; omega) | rfl

/-- The logistic function takes every extended real to a real in `[0, 1]`. -/
theorem logistic_real (x : EReal) : ∃ r : ℝ, 0 ≤ r ∧ r ≤ 1 ∧ Ideal.logistic x = (r : EReal) := by
  induction x using EReal.rec with
  | bot => exact ⟨0, le_refl _, zero_le_one, by rw [Ideal.logistic_bot, EReal.coe_zero]⟩
  | coe a =>
    have hp : (0 : ℝ) < 1 + Real.exp (-a) := by positivity
    refine ⟨(1 + Real.exp (-a))⁻¹, inv_nonneg.2 hp.le, ?_, Ideal.logistic_coe a⟩
    exact inv_le_one_of_one_le₀ (by linarith [Real.exp_pos (-a)])
  | top => exact ⟨1, zero_le_one, le_refl _, by rw [Ideal.logistic_top, EReal.coe_one]⟩

/-- Truncating `32 r` to a signed 32-bit integer, for `r ∈ [0, 1]`: the natural number `⌊32 r⌋`. -/
theorem fptosi_scaled (r : ℝ) (hr : 0 ≤ r) (hr1 : r ≤ 1) :
    Ideal.fptosi 32 ((r : EReal) * ((32 : ℝ) : EReal)) = BitVec.ofNat 32 ⌊32 * r⌋₊ := by
  rw [← EReal.coe_mul, Ideal.fptosi, Ideal.toIntClamped_coe]
  have h0 : (0 : ℝ) ≤ r * 32 := by positivity
  rw [if_pos h0]
  have hfl : ⌊r * 32⌋ = ((⌊32 * r⌋₊ : ℕ) : ℤ) := by
    rw [mul_comm]; exact (Int.natCast_floor_eq_floor (by positivity)).symm
  have hle : ⌊32 * r⌋₊ ≤ 32 := Nat.floor_le_of_le (by push_cast; linarith)
  rw [hfl]
  have hc : max (-((2 ^ (32 - 1) : ℕ) : ℤ)) (min (((2 ^ (32 - 1) : ℕ) : ℤ) - 1) ((⌊32 * r⌋₊ : ℕ) : ℤ))
      = ((⌊32 * r⌋₊ : ℕ) : ℤ) := by
    norm_num; omega
  rw [hc]
  exact BitVec.ofInt_natCast _ _

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The 32 thresholds `k / 32` as binary32 words. -/
def thrWord : Fin 32 → BitVec 32 :=
  ![0x00000000#32, 0x3D000000#32, 0x3D800000#32, 0x3DC00000#32, 0x3E000000#32, 0x3E200000#32, 0x3E400000#32, 0x3E600000#32,
    0x3E800000#32, 0x3E900000#32, 0x3EA00000#32, 0x3EB00000#32, 0x3EC00000#32, 0x3ED00000#32, 0x3EE00000#32, 0x3EF00000#32,
    0x3F000000#32, 0x3F080000#32, 0x3F100000#32, 0x3F180000#32, 0x3F200000#32, 0x3F280000#32, 0x3F300000#32, 0x3F380000#32,
    0x3F400000#32, 0x3F480000#32, 0x3F500000#32, 0x3F580000#32, 0x3F600000#32, 0x3F680000#32, 0x3F700000#32, 0x3F780000#32]

/-- Word `k` denotes exactly `k / 32` (a dyadic rational: no rounding). -/
theorem thrWord_val (k : Fin 32) : Ideal.ofBits .f32 (thrWord k) = (((k.val : ℝ) / 32 : ℝ) : EReal) := by
  fin_cases k <;> simp [thrWord, Ideal.ofBits, Ideal.ieee, -EReal.coe_mul] <;> norm_num

/-- The binary32 word of 32. -/
theorem ofBits_32 : Ideal.ofBits .f32 0x42000000#32 = ((32 : ℝ) : EReal) := by
  simp [Ideal.ofBits, Ideal.ieee, -EReal.coe_mul]; norm_num

/-- A threshold test `k / 32 ≤ r` made as a 1-bit comparison, widened to 32 bits and read as a number: the cumulative
    indicator. -/
theorem mask_val (k : ℕ) (r : ℝ) :
    ((((Ideal.cmp .oge (r : EReal) ((((k : ℝ) / 32 : ℝ)) : EReal)).setWidth 32).toInt : ℝ) : EReal) = (geInd k r : EReal) := by
  unfold geInd Ideal.cmp
  by_cases h : (k : ℝ) / 32 ≤ r
  · have h' : ((((k : ℝ) / 32 : ℝ)) : EReal) ≤ (r : EReal) := EReal.coe_le_coe_iff.2 h
    rw [if_pos h, decide_eq_true h', show ((BitVec.ofBool true).setWidth 32).toInt = 1 by decide]
    norm_num
  · have h' : ¬ ((((k : ℝ) / 32 : ℝ)) : EReal) ≤ (r : EReal) := fun hh => h (EReal.coe_le_coe_iff.1 hh)
    rw [if_neg h, decide_eq_false h', show ((BitVec.ofBool false).setWidth 32).toInt = 0 by decide]
    norm_num

/-- The reference's clip to `[0, 31]` followed by its wrap of negative indices (which never fires after the clip), on the
    words `0 … 32` that a truncated `32 r` can be: the capped bin. -/
theorem clip_wrap : ∀ n : Fin 33,
    (Scalar.select (IntOp.cmpi .slt (IntOp.minsi 31#32 (IntOp.maxsi 0#32 (BitVec.ofNat 32 n.val))) 0#32)
        (IntOp.addi (IntOp.minsi 31#32 (IntOp.maxsi 0#32 (BitVec.ofNat 32 n.val))) 32#32)
        (IntOp.minsi 31#32 (IntOp.maxsi 0#32 (BitVec.ofNat 32 n.val)))).toInt = ((min n.val 31 : ℕ) : ℤ) := by
  decide

end Cert.Hist

end
-- ==== Proof.LibRowCount.lean ====
/-
  One row of cumulative counts.

  For one batch row and one chunk of 512 samples, the probabilities are the logistic of the scores `x · w`
  (a `[512, 256] × [256, 128]` product). Each probability is tested against the 32 thresholds `k / 32`; the 32
  tests, each a `[512, 128]` array of ones and zeros, sit side by side along the lanes (test `k` of feature `f` in
  lane `128 k + f`), and a product with a row of 512 ones sums every column. So lane `128 k + f` of the result is
  the number of the chunk's samples whose probability for feature `f` is at least `k / 32`.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«100293_j24893630448192_2_alg».proof.Proof.Binning

noncomputable section

namespace Cert.Hist

open Idealize.ShloMosaic Idealize.ShloMosaic.ValueIdx Idealize.ShloMosaic.Pipeline

/-! ## One row's cumulative counts -/

abbrev SXc : Shape := ⟨2, ![512, 256]⟩
abbrev SWt : Shape := ⟨2, ![256, 128]⟩
abbrev SPr : Shape := ⟨2, ![512, 128]⟩
abbrev SCat : Shape := ⟨2, ![512, 4096]⟩
abbrev SOnes : Shape := ⟨2, ![1, 512]⟩
abbrev SRow : Shape := ⟨2, ![1, 4096]⟩

section AnyF
variable {F : FTy → Type} [FloatOps F]

/-- The probabilities of one chunk of 512 samples against the 128 features: the logistic of the scores `x · w`. -/
def probs (x : FVec F SXc .f32) (w : FVec F SWt .f32) : FVec F SPr .f32 :=
  logistic (matmul (DotDims.plain 512 256 128) none x w (constant SPr .f32 0x00000000#32))

/-- The threshold test `p ≥ (the number word w denotes)` of every probability, as 1.0 or 0.0. -/
def maskOf (p : FVec F SPr .f32) (w : BitVec 32) : FVec F SPr .bf16 :=
  truncf .bf16 (sitofp .f32 (extui 32 (cmpf .oge p (broadcast SPr (Scalar.ofBits .f32 w))) (by decide))) (by decide)

/-- The 32 threshold tests side by side along the lanes: test `k` of feature `f` in lane `128 k + f`. -/
def masks (p : FVec F SPr .f32) : FVec F SCat .bf16 :=
  concatenate SCat 1 (List.ofFn fun k : Fin 32 => (⟨SPr, maskOf p (thrWord k)⟩ : (s : Shape) × (s.Idx → F .bf16)))
    (show Shape.Concatenates (List.replicate 32 SPr) SCat 1 from by decide)

/-- The chunk's cumulative counts: the column sums of the tests, taken as a product with a row of ones. -/
def rowCounts (x : FVec F SXc .f32) (w : FVec F SWt .f32) : FVec F SRow .f32 :=
  matmul (DotDims.plain 1 512 4096) none (broadcast SOnes (Scalar.ofBits .bf16 0x3F80#16)) (masks (probs x w))
    (constant SRow .f32 0x00000000#32)

end AnyF

/-- A plain `[512, 256] × [256, 128]` product into zero, at an entry. -/
theorem matmul_scores_apply (x : FVec Ideal SXc .f32) (w : FVec Ideal SWt .f32) (n : Fin 512) (f : Fin 128) :
    matmul (DotDims.plain 512 256 128) none x w (constant SPr .f32 0x00000000#32) (ix2 n f)
      = ∑ d : Fin 256, x (ix2 n d) * w (ix2 d f) := by
  show FloatOps.matmul (DotDims.plain 512 256 128) none x w (constant SPr .f32 0x00000000#32) (ix2 n f) = _
  rw [Ideal.matmul_constant_zero_apply, ← Equiv.sum_comp (contrEquiv1 (DotDims.plain 512 256 128) 256 rfl rfl).symm]
  refine Finset.sum_congr rfl fun d _ => ?_
  have hd := contrEquiv1_symm_val (DotDims.plain 512 256 128) 256 rfl rfl d
  have el : (DotDims.plain 512 256 128).lhsIdx (ix2 n f) ((contrEquiv1 (DotDims.plain 512 256 128) 256 rfl rfl).symm d) = ix2 n d :=
    funext fun a => Fin.ext (by
      match a with
      | ⟨0, _⟩ => rfl
      | ⟨1, _⟩ => exact hd)
  have er : (DotDims.plain 512 256 128).rhsIdx (ix2 n f) ((contrEquiv1 (DotDims.plain 512 256 128) 256 rfl rfl).symm d) = ix2 d f :=
    funext fun a => Fin.ext (by
      match a with
      | ⟨0, _⟩ => exact hd
      | ⟨1, _⟩ => rfl)
  rw [el, er]

/-- A row of 512 ones times a `[512, 4096]` matrix into zero, at a lane: the column's sum. -/
theorem matmul_ones_apply (y : FVec Ideal SCat .bf16) (j : Fin 4096) :
    matmul (DotDims.plain 1 512 4096) none (broadcast SOnes (Scalar.ofBits (F := Ideal) .bf16 0x3F80#16)) y
        (constant SRow .f32 0x00000000#32) (ix2 0 j)
      = ∑ n : Fin 512, y (ix2 n j) := by
  show FloatOps.matmul (DotDims.plain 1 512 4096) none (broadcast SOnes (Scalar.ofBits (F := Ideal) .bf16 0x3F80#16)) y
      (constant SRow .f32 0x00000000#32) (ix2 0 j) = _
  rw [Ideal.matmul_constant_zero_apply, ← Equiv.sum_comp (contrEquiv1 (DotDims.plain 1 512 4096) 512 rfl rfl).symm]
  refine Finset.sum_congr rfl fun n _ => ?_
  have hn := contrEquiv1_symm_val (DotDims.plain 1 512 4096) 512 rfl rfl n
  have er : (DotDims.plain 1 512 4096).rhsIdx (ix2 0 j) ((contrEquiv1 (DotDims.plain 1 512 4096) 512 rfl rfl).symm n) = ix2 n j :=
    funext fun a => Fin.ext (by
      match a with
      | ⟨0, _⟩ => exact hn
      | ⟨1, _⟩ => rfl)
  rw [er, broadcast_apply]
  show Ideal.ofBits .bf16 0x3F80#16 * _ = _
  rw [Ideal.ofBits_one_bf16, one_mul]

/-- The probabilities at an entry. -/
theorem probs_apply (x : FVec Ideal SXc .f32) (w : FVec Ideal SWt .f32) (n : Fin 512) (f : Fin 128) :
    probs x w (ix2 n f) = Ideal.logistic (∑ d : Fin 256, x (ix2 n d) * w (ix2 d f)) := by
  unfold probs
  show Ideal.logistic (matmul (DotDims.plain 512 256 128) none x w (constant SPr .f32 0x00000000#32) (ix2 n f)) = _
  rw [matmul_scores_apply]

/-- Lane `128 k + f` of the side-by-side tests is test `k` of feature `f`. -/
theorem masks_apply (p : FVec Ideal SPr .f32) (n : Fin 512) (k : Fin 32) (f : Fin 128) (j : Fin 4096)
    (hj : j.val = 128 * k.val + f.val) :
    masks p (ix2 n j) = ((((Ideal.cmp .oge (p (ix2 n f)) (Ideal.ofBits .f32 (thrWord k))).setWidth 32).toInt : ℝ) : EReal) := by
  unfold masks
  refine (concatenate_ofFn_apply (t := SCat) (s₁ := SPr) 1 (fun k : Fin 32 => maskOf p (thrWord k)) _ rfl 128 rfl (ix2 n j) k
    (by show j.val / 128 = k.val; have := f.isLt; omega) (ix2 n f)
    (by show f.val = j.val % 128; have := f.isLt; omega)
    (by
      intro b hb
      match b with
      | ⟨0, _⟩ => rfl
      | ⟨1, _⟩ => exact absurd rfl hb)).trans ?_
  rfl

/-- The probability of sample `n` against feature `f`, as the real number in `[0, 1]` it is. -/
def probR (x : FVec Ideal SXc .f32) (w : FVec Ideal SWt .f32) (n : Fin 512) (f : Fin 128) : ℝ :=
  (Ideal.logistic (∑ d : Fin 256, x (ix2 n d) * w (ix2 d f))).toReal

theorem probR_spec (x : FVec Ideal SXc .f32) (w : FVec Ideal SWt .f32) (n : Fin 512) (f : Fin 128) :
    0 ≤ probR x w n f ∧ probR x w n f ≤ 1
      ∧ Ideal.logistic (∑ d : Fin 256, x (ix2 n d) * w (ix2 d f)) = (probR x w n f : EReal) := by
  obtain ⟨r, hr0, hr1, hr⟩ := logistic_real (∑ d : Fin 256, x (ix2 n d) * w (ix2 d f))
  have e : probR x w n f = r := by unfold probR; rw [hr]; rfl
  rw [e]; exact ⟨hr0, hr1, hr⟩

/-- Lane `128 k + f` of the chunk's counts: how many of its 512 samples pass test `k` for feature `f`. -/
theorem rowCounts_apply (x : FVec Ideal SXc .f32) (w : FVec Ideal SWt .f32) (k : Fin 32) (f : Fin 128) (j : Fin 4096)
    (hj : j.val = 128 * k.val + f.val) :
    rowCounts x w (ix2 0 j) = ((∑ n : Fin 512, geInd k.val (probR x w n f) : ℝ) : EReal) := by
  unfold rowCounts
  rw [matmul_ones_apply, coe_sum]
  refine Finset.sum_congr rfl fun n _ => ?_
  rw [masks_apply _ n k f j hj, probs_apply, thrWord_val, (probR_spec x w n f).2.2, mask_val]

end Cert.Hist

end
-- ==== Proof.LibHistBlock.lean ====
/-
  From cumulative counts to a histogram.

  A block of 16 batch rows holds, in lane `128 k + f`, the number `C k f` of samples whose probability for feature
  `f` is at least `k / 32`. Bin `k < 31` of feature `f` then holds `C k f − C (k+1) f` samples and the last bin
  `C 31 f`; dividing by the 2048 samples and laying the result out feature-major (lane `32 f + k`) gives the block of
  the normalized histogram.
-/
import Idealize.ShloMosaic.PureOps.Ideal
import Idealize.ShloMosaic.PureOps.Ideal.Laws
import Idealize.ShloMosaic.Lib.ValueIdx
import Idealize.ShloMosaic.Lib.Pipeline.Value

noncomputable section

namespace Cert.Hist

open Idealize.ShloMosaic Idealize.ShloMosaic.ValueIdx Idealize.ShloMosaic.Pipeline

/-! ## From cumulative counts to the histogram block -/

abbrev SAcc : Shape := ⟨2, ![16, 4096]⟩
abbrev SKF : Shape := ⟨3, ![16, 32, 128]⟩
abbrev SKF31 : Shape := ⟨3, ![16, 31, 128]⟩
abbrev SKF1 : Shape := ⟨3, ![16, 1, 128]⟩
abbrev SFK : Shape := ⟨3, ![16, 128, 32]⟩

section AnyF
variable {F : FTy → Type} [FloatOps F]

/-- The histogram block of 16 batch rows from their cumulative counts (lane `128 k + f` = count of test `k` for feature
    `f`): consecutive differences below the last bin, the last count kept, everything divided by the 2048 samples, and
    laid out feature-major (lane `32 f + k`). -/
def histBlock (s : FVec F SAcc .f32) : FVec F SAcc .f32 :=
  shapeCast SAcc
    (transpose SFK [0, 2, 1]
      (divf
        (concatenate SKF 1
          [⟨SKF31, subf (extractStridedSlice SKF31 ![0, 0, 0] (shapeCast SKF s (by decide)) (by decide))
                        (extractStridedSlice SKF31 ![0, 1, 0] (shapeCast SKF s (by decide)) (by decide))⟩,
           ⟨SKF1, extractStridedSlice SKF1 ![0, 31, 0] (shapeCast SKF s (by decide)) (by decide)⟩]
          (show Shape.Concatenates [SKF31, SKF1] SKF 1 from by decide))
        (broadcast SKF (Scalar.ofBits .f32 0x45000000#32)))
      (by decide))
    (by decide)

end AnyF

/-- The cumulative-count array read as `[row, test, feature]`. -/
theorem cast_kf_apply (s : FVec Ideal SAcc .f32) (tb : Fin 16) (k : Fin 32) (f : Fin 128) (j : Fin 4096)
    (hj : j.val = 128 * k.val + f.val) (h : SAcc.ShapeCasts SKF) :
    shapeCast SKF s h (ix3 tb k f) = s (ix2 tb j) := by
  refine shapeCast_apply s h (ix3 tb k f) (ix2 tb j) ?_
  rw [Shape.rowMajor_val_two, Shape.rowMajor_val_three]
  show tb.val * 4096 + j.val = (tb.val * 32 + k.val) * 128 + f.val
  omega

/-- Lane `32 f + k` of the histogram block: the difference of counts `k` and `k + 1` (the count itself for the last
    bin) of feature `f`, over 2048. -/
theorem histBlock_apply (s : FVec Ideal SAcc .f32) (tb : Fin 16) (f : Fin 128) (k : Fin 32) (j jk jk1 : Fin 4096)
    (hj : j.val = 32 * f.val + k.val) (hjk : jk.val = 128 * k.val + f.val)
    (hjk1 : k.val < 31 → jk1.val = 128 * (k.val + 1) + f.val) :
    histBlock (F := Ideal) s (ix2 tb j)
      = Ideal.div (if k.val < 31 then s (ix2 tb jk) - s (ix2 tb jk1) else s (ix2 tb jk)) (Ideal.ofBits .f32 0x45000000#32) := by
  unfold histBlock
  rw [shapeCast_apply _ _ (ix2 tb j) (ix3 tb f k) (by
    rw [Shape.rowMajor_val_two, Shape.rowMajor_val_three]
    show (tb.val * 128 + f.val) * 32 + k.val = tb.val * 4096 + j.val
    omega)]
  rw [transpose_apply [0, 2, 1] _ _ (ix3 tb f k) (ix3 tb k f) (by
    intro b
    match b with
    | ⟨0, _⟩ => rfl
    | ⟨1, _⟩ => rfl
    | ⟨2, _⟩ => rfl)]
  rw [divf_apply, broadcast_apply]
  refine congrArg (Ideal.div · (Ideal.ofBits .f32 0x45000000#32)) ?_
  by_cases hk : k.val < 31
  · rw [if_pos hk]
    refine (concatenate_apply_piece 1 _ _ (ix3 tb k f) 0 (by exact Nat.succ_pos _) SKF31 _ rfl rfl 0 rfl (ix3 tb ⟨k.val, hk⟩ f) ?_ ?_).trans ?_
    · intro b hb
      match b with
      | ⟨0, _⟩ => rfl
      | ⟨1, _⟩ => exact absurd rfl hb
      | ⟨2, _⟩ => rfl
    · show 0 + k.val = k.val; omega
    · rw [subf_apply,
        extractStridedSlice_apply ![0, 0, 0] _ _ (ix3 tb ⟨k.val, hk⟩ f) (ix3 tb k f) (by
          intro a
          match a with
          | ⟨0, _⟩ => show tb.val = 0 + tb.val; omega
          | ⟨1, _⟩ => show k.val = 0 + k.val; omega
          | ⟨2, _⟩ => show f.val = 0 + f.val; omega),
        extractStridedSlice_apply ![0, 1, 0] _ _ (ix3 tb ⟨k.val, hk⟩ f) (ix3 tb ⟨k.val + 1, by omega⟩ f) (by
          intro a
          match a with
          | ⟨0, _⟩ => show tb.val = 0 + tb.val; omega
          | ⟨1, _⟩ => show k.val + 1 = 1 + k.val; omega
          | ⟨2, _⟩ => show f.val = 0 + f.val; omega),
        cast_kf_apply s tb k f jk hjk, cast_kf_apply s tb ⟨k.val + 1, by omega⟩ f jk1 (hjk1 hk)]
  · rw [if_neg hk]
    have hk31 : k.val = 31 := by have := k.isLt; omega
    refine (concatenate_apply_piece 1 _ _ (ix3 tb k f) 1 (by exact Nat.lt_succ_self _) SKF1 _ rfl rfl 31 rfl (ix3 tb 0 f) ?_ ?_).trans ?_
    · intro b hb
      match b with
      | ⟨0, _⟩ => rfl
      | ⟨1, _⟩ => exact absurd rfl hb
      | ⟨2, _⟩ => rfl
    · show 31 + 0 = k.val; omega
    · rw [extractStridedSlice_apply ![0, 31, 0] _ _ (ix3 tb 0 f) (ix3 tb k f) (by
          intro a
          match a with
          | ⟨0, _⟩ => show tb.val = 0 + tb.val; omega
          | ⟨1, _⟩ => show k.val = 31 + 0; omega
          | ⟨2, _⟩ => show f.val = 0 + f.val; omega),
        cast_kf_apply s tb k f jk hjk]

end Cert.Hist

end
-- ==== Proof.StepRows.lean ====
/-
  What one grid point does to the accumulator.

  The accumulator holds, for each of the block's 16 batch rows, the 4096 cumulative counts (lane `128 k + f`). At a
  grid point the body adds to row `tb` the cumulative counts of the point's chunk of 512 samples of that batch row
  (`rowCounts`), one row after the other. The 16 stores of a point tile the accumulator, and every one of them stores
  the same function of its row: the row's old contents plus the row's counts.
-/
import proofs.«100293_j24893630448192_2_alg».proof.Proof.Gen.KernelIdeal.Value
import proofs.«100293_j24893630448192_2_alg».proof.Proof.LibRowCount
import proofs.«100293_j24893630448192_2_alg».proof.Proof.LibHistBlock
import Idealize.ShloMosaic.Lib.Pipeline.CanonAppend

set_option maxRecDepth 16384

noncomputable section

namespace Cert.KernelIdeal.Rows

open Cert.KernelIdeal Cert.KernelIdeal.Gen Idealize.ShloMosaic Idealize.ShloMosaic.TcCoe
open Idealize.ShloMosaic.Tactic Idealize.SL.Sem Idealize.ShloMosaic.ValueIdx

variable {F : FTy → Type} [FloatOps F]

theorem inbAcc (tb : Fin 16) : ∀ a, (![tb.val, 0] : Fin 2 → Nat) a + (![1, 4096] : Fin 2 → Nat) a ≤ S16x4096.size a := by
  intro a
  fin_cases a
  · show tb.val + 1 ≤ 16; omega
  · show 0 + 4096 ≤ 4096; omega

theorem inbX (tb : Fin 16) :
    ∀ a, (![tb.val, 0, 0] : Fin 3 → Nat) a + (![1, 512, 256] : Fin 3 → Nat) a ≤ S16x512x256.size a := by
  intro a
  fin_cases a
  · show tb.val + 1 ≤ 16; omega
  · show 0 + 512 ≤ 512; omega
  · show 0 + 256 ≤ 256; omega

/-- One accumulator row after a point, from what the body loaded: the row's old contents `old` plus the cumulative counts
    of the chunk `xl` of samples against the transposed weights `wl`. -/
def rowPayloadG (xl : Vec F S1x512x256 .f32) (wl : Vec F S256x128 .f32) (old : Vec F S1x4096 .f32) : FVec F S1x4096 .f32 :=
  shapeCast S1x4096
    (addf
      (shapeCast S4096 old Facts₀.shapeCasts_S1x4096_S4096)
      (shapeCast S4096
        (Cert.Hist.rowCounts
          (shapeCast S512x256 xl Facts₀.shapeCasts_S1x512x256_S512x256)
          (shapeCast S256x128 wl Facts₀.shapeCasts_S256x128_S256x128))
        Facts₀.shapeCasts_S1x4096_S4096))
    Facts₀.shapeCasts_S4096_S1x4096

/-- Row `tb` of the accumulator's rectangle, the chunk of batch row `tb`, and the whole weights. -/
abbrev accRect (tb : Fin 16) : Rect S16x4096 := Rect.unit (s := S16x4096) ![tb.val, 0] ![1, 4096] (inbAcc tb)
abbrev xRect (tb : Fin 16) : Rect S16x512x256 := Rect.unit (s := S16x512x256) ![tb.val, 0, 0] ![1, 512, 256] (inbX tb)
abbrev wRect : Rect S256x128 := Rect.unit (s := S256x128) ![0, 0] ![256, 128] Facts₀.inb_S256x128_S256x128_0_0

/-- Row `tb` of the accumulator after a point, from the buffers' contents: row `tb` of `acc` plus the cumulative counts
    of the point's chunk of batch row `tb` (the samples `x0[tb]`, the transposed weights `x1`). -/
def rowPayload (x0 : Vec F S16x512x256 .f32) (x1 : Vec F S256x128 .f32) (acc : Vec F S16x4096 .f32) (tb : Fin 16) :
    FVec F S1x4096 .f32 :=
  rowPayloadG (View.ld x0 (xRect tb)) (View.ld x1 wRect) (View.ld acc (accRect tb))

/-- The accumulator after a point, as one function of its index. -/
def stepRows (x0 : Vec F S16x512x256 .f32) (x1 : Vec F S256x128 .f32) (acc : Vec F S16x4096 .f32) : Vec F S16x4096 .f32 :=
  fun y => rowPayload x0 x1 acc (y 0) (ix2 (0 : Fin 1) (y 1))

/-- A store of row `tb`'s payload through the row's rectangle agrees with `stepRows` there. -/
theorem agree (x0 : Vec F S16x512x256 .f32) (x1 : Vec F S256x128 .f32) (acc : Vec F S16x4096 .f32) (tb : Fin 16)
    (inb : ∀ a, (![tb.val, 0] : Fin 2 → Nat) a + (![1, 4096] : Fin 2 → Nat) a ≤ S16x4096.size a)
    (pay : FVec F S1x4096 .f32) (hpay : pay = rowPayload x0 x1 acc tb)
    (x : (Rect.unit (s := S16x4096) ![tb.val, 0] ![1, 4096] inb).shape.Idx) :
    pay x = stepRows x0 x1 acc ((Rect.unit (s := S16x4096) ![tb.val, 0] ![1, 4096] inb).emb x) := by
  subst hpay
  unfold stepRows
  have h0 : ((Rect.unit (s := S16x4096) ![tb.val, 0] ![1, 4096] inb).emb x) 0 = tb :=
    Fin.ext (by show tb.val + 1 * (x 0).val = tb.val; have : (x 0).val < 1 := (x 0).isLt; omega)
  have h1 : ix2 (0 : Fin 1) (((Rect.unit (s := S16x4096) ![tb.val, 0] ![1, 4096] inb).emb x) 1) = x := by
    funext a
    apply Fin.ext
    fin_cases a
    · show 0 = (x 0).val; have : (x 0).val < 1 := (x 0).isLt; omega
    · show 0 + 1 * (x 1).val = (x 1).val; omega
  rw [h0]
  exact (congrArg (rowPayload x0 x1 acc tb) h1).symm

/-- The points that neither reset nor finish: the 16 stores leave `stepRows` of what the point before left. -/
theorem sout_B (c : Dev nD) (i : grid0.Coords) (a2 : Memref sig .tc .vmem S16x512x256 .f32) (h2 : a2.IsWhole)
    (a3 : Memref sig .tc .vmem S256x128 .f32) (h3 : a3.IsWhole) (a4 : Memref sig .tc .vmem S16x4096 .f32) (h4 : a4.IsWhole)
    (a5 : Memref sig .tc .vmem S16x4096 .f32) (h5 : a5.IsWhole) (hc0 : ¬cond0_0 i) (hc1 : ¬cond0_1 i)
    (x0 : Vec F S16x512x256 .f32) (x1 : Vec F S256x128 .f32) (xs0 : Vec F S16x4096 .f32) :
    sout0_B_0 c i a2 h2 a3 h3 a4 h4 a5 h5 hc0 hc1 x0 x1 xs0 = stepRows x0 x1 xs0 := by
  unfold sout0_B_0
  rw [View.read_writes_eq_canon _ _ _ (scover0_B_0 c i a2 h2 a3 h3 a4 h4 a5 h5 hc0 hc1 x0 x1 xs0)]
  funext y
  have hy := scover0_B_0 c i a2 h2 a3 h3 a4 h4 a5 h5 hc0 hc1 x0 x1 xs0 y
  revert hy
  unfold kernelRun0_B
  dsimp only
  sl_unfold_words
  simp only [View.readAt_eq_ld, h2.read_unread, h3.read_unread, h5.read_unread]
  intro hy
  refine View.canon_apply_of_pieces (stepRows x0 x1 xs0) _ ?_ y hy
  intro p hp x
  simp only [List.mem_cons, List.mem_nil_iff, or_false] at hp
  rcases hp with rfl | rfl | rfl | rfl | rfl | rfl | rfl | rfl | rfl | rfl | rfl | rfl | rfl | rfl | rfl | rfl
  · exact agree x0 x1 xs0 15 (inbAcc 15) _ rfl x
  · exact agree x0 x1 xs0 14 (inbAcc 14) _ rfl x
  · exact agree x0 x1 xs0 13 (inbAcc 13) _ rfl x
  · exact agree x0 x1 xs0 12 (inbAcc 12) _ rfl x
  · exact agree x0 x1 xs0 11 (inbAcc 11) _ rfl x
  · exact agree x0 x1 xs0 10 (inbAcc 10) _ rfl x
  · exact agree x0 x1 xs0 9 (inbAcc 9) _ rfl x
  · exact agree x0 x1 xs0 8 (inbAcc 8) _ rfl x
  · exact agree x0 x1 xs0 7 (inbAcc 7) _ rfl x
  · exact agree x0 x1 xs0 6 (inbAcc 6) _ rfl x
  · exact agree x0 x1 xs0 5 (inbAcc 5) _ rfl x
  · exact agree x0 x1 xs0 4 (inbAcc 4) _ rfl x
  · exact agree x0 x1 xs0 3 (inbAcc 3) _ rfl x
  · exact agree x0 x1 xs0 2 (inbAcc 2) _ rfl x
  · exact agree x0 x1 xs0 1 (inbAcc 1) _ rfl x
  · exact agree x0 x1 xs0 0 (inbAcc 0) _ rfl x

/-- The finishing points: the accumulator likewise ends at `stepRows` of what the point before left. -/
theorem sout_C (c : Dev nD) (i : grid0.Coords) (a2 : Memref sig .tc .vmem S16x512x256 .f32) (h2 : a2.IsWhole)
    (a3 : Memref sig .tc .vmem S256x128 .f32) (h3 : a3.IsWhole) (a4 : Memref sig .tc .vmem S16x4096 .f32) (h4 : a4.IsWhole)
    (a5 : Memref sig .tc .vmem S16x4096 .f32) (h5 : a5.IsWhole) (hc0 : ¬cond0_0 i) (hc1 : cond0_1 i)
    (x0 : Vec F S16x512x256 .f32) (x1 : Vec F S256x128 .f32) (xs0 : Vec F S16x4096 .f32) :
    sout0_C_0 c i a2 h2 a3 h3 a4 h4 a5 h5 hc0 hc1 x0 x1 xs0 = stepRows x0 x1 xs0 := by
  unfold sout0_C_0
  rw [View.read_writes_eq_canon _ _ _ (scover0_C_0 c i a2 h2 a3 h3 a4 h4 a5 h5 hc0 hc1 x0 x1 xs0)]
  funext y
  have hy := scover0_C_0 c i a2 h2 a3 h3 a4 h4 a5 h5 hc0 hc1 x0 x1 xs0 y
  revert hy
  unfold kernelRun0_C
  dsimp only
  sl_unfold_words
  simp only [View.readAt_eq_ld, h2.read_unread, h3.read_unread, h5.read_unread]
  intro hy
  refine View.canon_apply_of_pieces (stepRows x0 x1 xs0) _ ?_ y hy
  intro p hp x
  simp only [List.mem_cons, List.mem_nil_iff, or_false] at hp
  rcases hp with rfl | rfl | rfl | rfl | rfl | rfl | rfl | rfl | rfl | rfl | rfl | rfl | rfl | rfl | rfl | rfl
  · exact agree x0 x1 xs0 15 (inbAcc 15) _ rfl x
  · exact agree x0 x1 xs0 14 (inbAcc 14) _ rfl x
  · exact agree x0 x1 xs0 13 (inbAcc 13) _ rfl x
  · exact agree x0 x1 xs0 12 (inbAcc 12) _ rfl x
  · exact agree x0 x1 xs0 11 (inbAcc 11) _ rfl x
  · exact agree x0 x1 xs0 10 (inbAcc 10) _ rfl x
  · exact agree x0 x1 xs0 9 (inbAcc 9) _ rfl x
  · exact agree x0 x1 xs0 8 (inbAcc 8) _ rfl x
  · exact agree x0 x1 xs0 7 (inbAcc 7) _ rfl x
  · exact agree x0 x1 xs0 6 (inbAcc 6) _ rfl x
  · exact agree x0 x1 xs0 5 (inbAcc 5) _ rfl x
  · exact agree x0 x1 xs0 4 (inbAcc 4) _ rfl x
  · exact agree x0 x1 xs0 3 (inbAcc 3) _ rfl x
  · exact agree x0 x1 xs0 2 (inbAcc 2) _ rfl x
  · exact agree x0 x1 xs0 1 (inbAcc 1) _ rfl x
  · exact agree x0 x1 xs0 0 (inbAcc 0) _ rfl x

/-! ## The reset points

At the first chunk of a batch block the body first stores zeros over the whole accumulator, then updates the rows one
after the other; each row's old contents are read back through the stores made so far, and are the zeros. -/

/-- The zeros the reset stores. -/
abbrev zerosA : FVec F S16x4096 .f32 := k0_pay4

/-- The state after `k` of the reset point's row stores: the rows below `k` updated from zero, the others still zero. -/
def RowsDone (x0 : Vec F S16x512x256 .f32) (x1 : Vec F S256x128 .f32) (L : List (View.Piece (Elt F) S16x4096 .f32)) (k : ℕ) : Prop :=
  ∀ y : S16x4096.Idx, View.canon L y = if (y 0).val < k then stepRows x0 x1 zerosA y else zerosA y

theorem hz2 : (![0, 0] : Fin 2 → Nat) = fun _ => 0 := funext fun a => by fin_cases a <;> rfl

/-- After the store of zeros alone no row is updated. -/
theorem rowsDone_zero (x0 : Vec F S16x512x256 .f32) (x1 : Vec F S256x128 .f32)
    (inb : ∀ a, (![0, 0] : Fin 2 → Nat) a + S16x4096.size a ≤ S16x4096.size a) :
    RowsDone x0 x1 [(⟨Rect.unit (s := S16x4096) ![0, 0] S16x4096.size inb, zerosA⟩ : View.Piece (Elt F) S16x4096 .f32)] 0 := by
  intro y
  rw [View.canon_unit_zero hz2]
  exact (if_neg (Nat.not_lt_zero _)).symm

/-- One more row store: row `k`'s payload is built from the row's old contents read back through the earlier stores —
    still zero —, so row `k` is now updated from zero, and the other rows are as they were. -/
theorem rowsDone_succ (a2 : Memref sig .tc .vmem S16x512x256 .f32) (h2 : a2.IsWhole)
    (a3 : Memref sig .tc .vmem S256x128 .f32) (h3 : a3.IsWhole) (a5 : Memref sig .tc .vmem S16x4096 .f32)
    (x0 : Vec F S16x512x256 .f32) (x1 : Vec F S256x128 .f32) (k : Fin 16)
    (inb : ∀ a, (![k.val, 0] : Fin 2 → Nat) a + (![1, 4096] : Fin 2 → Nat) a ≤ S16x4096.size a)
    (L : List (View.Piece (Elt F) S16x4096 .f32)) (pay : FVec F S1x4096 .f32)
    (hpay : pay = rowPayloadG (View.readAt (Elt F) a2.view (xRect k).toLoadRect (h2.unread x0))
        (View.readAt (Elt F) a3.view wRect.toLoadRect (h3.unread x1))
        (a5.view.readCov L (accRect k).toLoadRect))
    (hL : RowsDone x0 x1 L k.val) :
    RowsDone x0 x1 ((⟨Rect.unit (s := S16x4096) ![k.val, 0] ![1, 4096] inb, pay⟩ : View.Piece (Elt F) S16x4096 .f32) :: L) (k.val + 1) := by
  intro y
  by_cases hy : (y 0).val = k.val
  · have hx : y = (Rect.unit (s := S16x4096) ![k.val, 0] ![1, 4096] inb).emb (ix2 (0 : Fin 1) (y 1)) := by
      funext a
      apply Fin.ext
      fin_cases a
      · show (y 0).val = k.val + 1 * 0; omega
      · show (y 1).val = 0 + 1 * (y 1).val; omega
    rw [if_pos (by omega)]
    have e1 : View.readAt (Elt F) a2.view (xRect k).toLoadRect (h2.unread x0) = View.ld x0 (xRect k) := by
      rw [View.readAt_eq_ld, h2.read_unread]
    have e2 : View.readAt (Elt F) a3.view wRect.toLoadRect (h3.unread x1) = View.ld x1 wRect := by
      rw [View.readAt_eq_ld, h3.read_unread]
    have e3 : a5.view.readCov L (accRect k).toLoadRect = View.ld zerosA (accRect k) := by
      rw [View.readCov_eq_canon']
      funext j
      show View.canon L ((accRect k).idx j) = zerosA ((accRect k).idx j)
      rw [hL]
      exact if_neg (by show ¬ (k.val + 1 * (j 0).val < k.val); omega)
    have e0 : y 0 = k := Fin.ext hy
    have hr : stepRows x0 x1 zerosA y = pay (ix2 (0 : Fin 1) (y 1)) := by
      unfold stepRows rowPayload
      rw [e0, hpay, e1, e2, e3]
    rw [hr]
    have hc := View.canon_cons_emb (Rect.unit (s := S16x4096) ![k.val, 0] ![1, 4096] inb) pay L (ix2 (0 : Fin 1) (y 1))
    rw [← hx] at hc
    exact hc
  · have hnm : y ∉ (Rect.unit (s := S16x4096) ![k.val, 0] ![1, 4096] inb).set := by
      intro hm
      rw [Rect.mem_set_unit] at hm
      have h0 : k.val ≤ (y 0).val ∧ (y 0).val < k.val + 1 := hm 0
      omega
    rw [View.canon_cons_of_not_mem (⟨Rect.unit (s := S16x4096) ![k.val, 0] ![1, 4096] inb, pay⟩ : View.Piece (Elt F) S16x4096 .f32) L hnm, hL y]
    by_cases h : (y 0).val < k.val
    · rw [if_pos h, if_pos (by omega)]
    · rw [if_neg h, if_neg (by omega)]

/-- The reset points: the accumulator ends at `stepRows` of zeros. -/
theorem sout_A (c : Dev nD) (i : grid0.Coords) (a2 : Memref sig .tc .vmem S16x512x256 .f32) (h2 : a2.IsWhole)
    (a3 : Memref sig .tc .vmem S256x128 .f32) (h3 : a3.IsWhole) (a4 : Memref sig .tc .vmem S16x4096 .f32) (h4 : a4.IsWhole)
    (a5 : Memref sig .tc .vmem S16x4096 .f32) (h5 : a5.IsWhole) (hc0 : cond0_0 i) (hc1 : ¬cond0_1 i)
    (x0 : Vec F S16x512x256 .f32) (x1 : Vec F S256x128 .f32) :
    sout0_A_0 c i a2 h2 a3 h3 a4 h4 a5 h5 hc0 hc1 x0 x1 = stepRows x0 x1 zerosA := by
  unfold sout0_A_0
  rw [View.read_writes_eq_canon _ _ _ (scover0_A_0 c i a2 h2 a3 h3 a4 h4 a5 h5 hc0 hc1 x0 x1)]
  unfold kernelRun0_A
  dsimp only
  funext y
  refine ((?_ : RowsDone x0 x1 _ 16) y).trans (if_pos (by have h : (y 0).val < 16 := (y 0).isLt; exact h))
  refine rowsDone_succ a2 h2 a3 h3 a5 x0 x1 15 _ _ _ rfl ?_
  refine rowsDone_succ a2 h2 a3 h3 a5 x0 x1 14 _ _ _ rfl ?_
  refine rowsDone_succ a2 h2 a3 h3 a5 x0 x1 13 _ _ _ rfl ?_
  refine rowsDone_succ a2 h2 a3 h3 a5 x0 x1 12 _ _ _ rfl ?_
  refine rowsDone_succ a2 h2 a3 h3 a5 x0 x1 11 _ _ _ rfl ?_
  refine rowsDone_succ a2 h2 a3 h3 a5 x0 x1 10 _ _ _ rfl ?_
  refine rowsDone_succ a2 h2 a3 h3 a5 x0 x1 9 _ _ _ rfl ?_
  refine rowsDone_succ a2 h2 a3 h3 a5 x0 x1 8 _ _ _ rfl ?_
  refine rowsDone_succ a2 h2 a3 h3 a5 x0 x1 7 _ _ _ rfl ?_
  refine rowsDone_succ a2 h2 a3 h3 a5 x0 x1 6 _ _ _ rfl ?_
  refine rowsDone_succ a2 h2 a3 h3 a5 x0 x1 5 _ _ _ rfl ?_
  refine rowsDone_succ a2 h2 a3 h3 a5 x0 x1 4 _ _ _ rfl ?_
  refine rowsDone_succ a2 h2 a3 h3 a5 x0 x1 3 _ _ _ rfl ?_
  refine rowsDone_succ a2 h2 a3 h3 a5 x0 x1 2 _ _ _ rfl ?_
  refine rowsDone_succ a2 h2 a3 h3 a5 x0 x1 1 _ _ _ rfl ?_
  refine rowsDone_succ a2 h2 a3 h3 a5 x0 x1 0 _ _ _ rfl ?_
  exact rowsDone_zero x0 x1 _

/-- The finishing points' output block: the histogram block of the finished accumulator (the body reads the accumulator
    back whole after its last row store). -/
theorem out_C (c : Dev nD) (i : grid0.Coords) (a2 : Memref sig .tc .vmem S16x512x256 .f32) (h2 : a2.IsWhole)
    (a3 : Memref sig .tc .vmem S256x128 .f32) (h3 : a3.IsWhole) (a4 : Memref sig .tc .vmem S16x4096 .f32) (h4 : a4.IsWhole)
    (a5 : Memref sig .tc .vmem S16x4096 .f32) (h5 : a5.IsWhole) (hc0 : ¬cond0_0 i) (hc1 : cond0_1 i)
    (x0 : Vec F S16x512x256 .f32) (x1 : Vec F S256x128 .f32) (xs0 : Vec F S16x4096 .f32) :
    out0_C_2 c i a2 h2 a3 h3 a4 h4 a5 h5 hc0 hc1 x0 x1 xs0 = Cert.Hist.histBlock (stepRows x0 x1 xs0) := by
  have hcan : View.canon (kernelRun0_C c i a2 h2 a3 h3 a4 h4 a5 h5 hc0 hc1 x0 x1 xs0).2.1 = stepRows x0 x1 xs0 := by
    rw [← sout_C c i a2 h2 a3 h3 a4 h4 a5 h5 hc0 hc1 x0 x1 xs0]
    unfold sout0_C_0
    rw [View.read_writes_eq_canon _ _ _ (scover0_C_0 c i a2 h2 a3 h3 a4 h4 a5 h5 hc0 hc1 x0 x1 xs0)]
  unfold out0_C_2
  rw [View.read_writes_eq_canon _ _ _ (cover0_C_2 c i a2 h2 a3 h3 a4 h4 a5 h5 hc0 hc1 x0 x1 xs0)]
  revert hcan
  unfold kernelRun0_C
  dsimp only
  intro hcan
  rw [View.canon_unit_zero hz2]
  have hv : kernelRun0_C.sl.v2777 c a2 h2 a3 h3 a5 h5 x0 x1 xs0 = stepRows x0 x1 xs0 := by
    unfold kernelRun0_C.sl.v2777
    rw [View.readCov_eq_canon_ld _ _ _ (by
      intro y
      exact scover0_C_0 c i a2 h2 a3 h3 a4 h4 a5 h5 hc0 hc1 x0 x1 xs0 y)]
    rw [View.ld_unit_zero (S := S16x4096) hz2]
    exact hcan
  rw [hv]
  rfl

end Cert.KernelIdeal.Rows

end
-- ==== Proof.PointSteps.lean ====
/-
  The accumulator from one grid point to the next.

  The generated frame says what the carried accumulator and the output buffer hold after each grid point, case by
  case, in terms of the pieces the body's run stored. Here the same is said through the functions those pieces are:
  after a reset point the accumulator is `stepRows` of zeros, after any other point `stepRows` of what the point
  before left, and the output block of a finishing point is the histogram block of its finished accumulator.
-/
import proofs.«100293_j24893630448192_2_alg».proof.Proof.StepRows

set_option maxRecDepth 16384

noncomputable section

namespace Cert.KernelIdeal.Rows

open Cert.KernelIdeal Cert.KernelIdeal.Gen Idealize.ShloMosaic Idealize.ShloMosaic.TcCoe
open Idealize.ShloMosaic.Tactic Idealize.SL.Sem Idealize.ShloMosaic.ValueIdx

variable {F : FTy → Type} [FloatOps F]
variable (m : (ℓ : Loc nD τ sig) → Buf (Elt F) ℓ)

/-- After a reset point the accumulator is `stepRows` of zeros; -/
theorem sc_A (c : Dev nD) (t : Fin cfg0.N) (h0 : t.val % 4 = 0) (h1 : ¬t.val % 4 = 3) :
    (outsAt0 m c t.val t.isLt).2 = stepRows (iblk m c 0 t) (iblk m c 1 t) zerosA := by
  simp only [outsAt0_A m c t h0 h1]
  exact sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- after any other point, `stepRows` of what the point before left; -/
theorem sc_B (c : Dev nD) (t : Fin cfg0.N) (h0 : ¬t.val % 4 = 0) (h1 : ¬t.val % 4 = 3) :
    (outsAt0 m c t.val t.isLt).2
      = stepRows (iblk m c 0 t) (iblk m c 1 t) (outsAt0 m c (t.val - 1) (Nat.lt_of_le_of_lt (Nat.sub_le _ _) t.isLt)).2 := by
  simp only [outsAt0_B m c t h0 h1]
  exact sout_B c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- and a finishing point's output block is the histogram block of its finished accumulator. -/
theorem out_at_C (c : Dev nD) (t : Fin cfg0.N) (h0 : ¬t.val % 4 = 0) (h1 : t.val % 4 = 3) :
    (outsAt0 m c t.val t.isLt).1
      = Cert.Hist.histBlock (stepRows (iblk m c 0 t) (iblk m c 1 t) (outsAt0 m c (t.val - 1) (Nat.lt_of_le_of_lt (Nat.sub_le _ _) t.isLt)).2) := by
  simp only [outsAt0_C m c t h0 h1]
  exact out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

end Cert.KernelIdeal.Rows

end
-- ==== Proof.HistSpec.lean ====
/-
  The histogram both programs compute.

  From samples `X[b, n, ·]` (64 batches of 2048 samples of 256 numbers) and 128 feature vectors `W[0, f, ·]`:
  the score of sample `n` of batch `b` against feature `f` is the inner product; its probability is the
  logistic of the score, a real in `[0, 1]`; and entry `[b, 32 f + k]` of the result is the fraction of the
  batch's 2048 samples whose probability for feature `f` lies in bin `k` of 32 uniform bins.
-/
import Idealize.ShloMosaic.PureOps.Ideal
import Idealize.ShloMosaic.Lib.ValueIdx
import proofs.«100293_j24893630448192_2_alg».proof.Proof.Binning

noncomputable section

namespace Cert.Hist

open Idealize.ShloMosaic Idealize.ShloMosaic.ValueIdx

abbrev SX : Shape := ⟨3, ![64, 2048, 256]⟩
abbrev SW : Shape := ⟨3, ![1, 128, 256]⟩
abbrev SOut : Shape := ⟨2, ![64, 4096]⟩

/-- The score of sample `n` of batch `b` against feature `f`. -/
def score (X : SX.Idx → EReal) (W : SW.Idx → EReal) (b : Fin 64) (n : Fin 2048) (f : Fin 128) : EReal :=
  ∑ d : Fin 256, X (ix3 b n d) * W (ix3 0 f d)

/-- Its probability, as the real number in `[0, 1]` it is. -/
def prob (X : SX.Idx → EReal) (W : SW.Idx → EReal) (b : Fin 64) (n : Fin 2048) (f : Fin 128) : ℝ :=
  (Ideal.logistic (score X W b n f)).toReal

theorem prob_spec (X : SX.Idx → EReal) (W : SW.Idx → EReal) (b : Fin 64) (n : Fin 2048) (f : Fin 128) :
    0 ≤ prob X W b n f ∧ prob X W b n f ≤ 1 ∧ Ideal.logistic (score X W b n f) = (prob X W b n f : EReal) := by
  obtain ⟨r, hr0, hr1, hr⟩ := logistic_real (score X W b n f)
  have e : prob X W b n f = r := by unfold prob; rw [hr]; rfl
  rw [e]; exact ⟨hr0, hr1, hr⟩

/-- How many of batch `b`'s samples have their probability for feature `f` in bin `k`. -/
def binCount (X : SX.Idx → EReal) (W : SW.Idx → EReal) (b : Fin 64) (f : Fin 128) (k : ℕ) : ℝ :=
  ∑ n : Fin 2048, binInd k (prob X W b n f)

/-- How many have it at least `k / 32`. -/
def geCount (X : SX.Idx → EReal) (W : SW.Idx → EReal) (b : Fin 64) (f : Fin 128) (k : ℕ) : ℝ :=
  ∑ n : Fin 2048, geInd k (prob X W b n f)

/-- Below the last bin a bin's count is the difference of two consecutive cumulative counts … -/
theorem geCount_sub (X : SX.Idx → EReal) (W : SW.Idx → EReal) (b : Fin 64) (f : Fin 128) (k : ℕ) (hk : k < 31) :
    geCount X W b f k - geCount X W b f (k + 1) = binCount X W b f k := by
  unfold geCount binCount
  rw [← Finset.sum_sub_distrib]
  exact Finset.sum_congr rfl fun n _ => geInd_sub k hk _ (prob_spec X W b n f).1

/-- … and the last bin's count is the last cumulative count. -/
theorem geCount_last (X : SX.Idx → EReal) (W : SW.Idx → EReal) (b : Fin 64) (f : Fin 128) :
    geCount X W b f 31 = binCount X W b f 31 :=
  Finset.sum_congr rfl fun n _ => geInd_last _ (prob_spec X W b n f).1

/-- The normalized histogram: entry `[b, 32 f + k]` is the count of bin `k` of feature `f` in batch `b`, over 2048
    (the divisor as the binary32 word of 2048, which both programs spell). -/
def hist (X : SX.Idx → EReal) (W : SW.Idx → EReal) : SOut.Idx → EReal := fun i =>
  Ideal.div ((binCount X W (i 0) ⟨(i 1).val / 32, by have h : (i 1).val < 4096 := (i 1).isLt; show (i 1).val / 32 < 128; omega⟩ ((i 1).val % 32) : ℝ) : EReal)
    (Ideal.ofBits .f32 0x45000000#32)

theorem hist_apply (X : SX.Idx → EReal) (W : SW.Idx → EReal) (b : Fin 64) (f : Fin 128) (k : Fin 32) (j : Fin 4096)
    (hj : j.val = 32 * f.val + k.val) :
    hist X W (ix2 b j) = Ideal.div ((binCount X W b f k.val : ℝ) : EReal) (Ideal.ofBits .f32 0x45000000#32) := by
  unfold hist
  have hf : (⟨j.val / 32, by have := j.isLt; omega⟩ : Fin 128) = f := Fin.ext (by show j.val / 32 = f.val; have := k.isLt; omega)
  have hk : j.val % 32 = k.val := by have := k.isLt; omega
  show Ideal.div ((binCount X W b ⟨j.val / 32, _⟩ (j.val % 32) : ℝ) : EReal) _ = _
  rw [hf, hk]

end Cert.Hist

end
-- ==== Proof.KernelHist.lean ====
/-
  The kernel computes the histogram.

  A grid point `t` works on batch block `t / 4` (16 batch rows) and chunk `t % 4` (512 of the 2048 samples). The
  accumulator row `tb` gains, in lane `128 k + f`, the number of the chunk's samples of batch `16 (t / 4) + tb` whose
  probability for feature `f` is at least `k / 32`. Over the four chunks of a batch block — reset at the first, finished
  at the last — the row holds the cumulative counts over all 2048 samples, and the block written back at the last chunk
  is the histogram's block: consecutive differences of the cumulative counts, over 2048.
-/
import proofs.«100293_j24893630448192_2_alg».proof.Proof.PointSteps
import proofs.«100293_j24893630448192_2_alg».proof.Proof.HistSpec
import Idealize.ShloMosaic.Lib.StableHlo.Run

set_option maxRecDepth 16384

noncomputable section

namespace Cert.KernelIdeal.HistValue

open Cert.KernelIdeal Cert.KernelIdeal.Gen Cert.KernelIdeal.Value Cert.KernelIdeal.Rows
open Idealize.ShloMosaic Idealize.ShloMosaic.TcCoe Idealize.SL.Sem Idealize.ShloMosaic.ValueIdx Idealize.ShloMosaic.Pipeline
open Idealize.ShloMosaic.StableHlo Cert.Hist

/-! ## One point's update, read at a lane -/

/-- The chunk of batch row `tb` of a sample block, as a `[512, 256]` array. -/
theorem chunk_eq (x0 : Vec Ideal S16x512x256 .f32) (tb : Fin 16) :
    shapeCast S512x256 (View.ld x0 (xRect tb)) Facts₀.shapeCasts_S1x512x256_S512x256
      = fun i : S512x256.Idx => x0 (ix3 tb (i 0) (i 1)) := by
  funext i
  refine (shapeCast_apply (View.ld x0 (xRect tb)) Facts₀.shapeCasts_S1x512x256_S512x256 i (ix3 (0 : Fin 1) (i 0) (i 1)) ?_).trans ?_
  · rw [Shape.rowMajor_val_two, Shape.rowMajor_val_three]
    show (0 * 512 + (i 0).val) * 256 + (i 1).val = (i 0).val * 256 + (i 1).val
    omega
  · show x0 ((xRect tb).idx (ix3 (0 : Fin 1) (i 0) (i 1))) = _
    refine congrArg x0 ?_
    funext a
    apply Fin.ext
    match a with
    | ⟨0, _⟩ => show tb.val + 1 * 0 = tb.val; omega
    | ⟨1, _⟩ => show 0 + 1 * (i 0).val = (i 0).val; omega
    | ⟨2, _⟩ => show 0 + 1 * (i 1).val = (i 1).val; omega

/-- The weights, loaded whole. -/
theorem weights_eq (x1 : Vec Ideal S256x128 .f32) :
    shapeCast S256x128 (View.ld x1 wRect) Facts₀.shapeCasts_S256x128_S256x128 = x1 := by
  refine (shapeCast_self (s := S256x128) (View.ld x1 wRect) Facts₀.shapeCasts_S256x128_S256x128).trans ?_
  exact View.ld_unit_zero (S := S256x128) hz2 _ x1

/-- Lane `128 k + f` of row `tb` after a point: what it held plus the chunk's count of test `k` for feature `f`. -/
theorem stepRows_apply (x0 : Vec Ideal S16x512x256 .f32) (x1 : Vec Ideal S256x128 .f32) (acc : Vec Ideal S16x4096 .f32)
    (tb : Fin 16) (k : Fin 32) (f : Fin 128) (j : Fin 4096) (hj : j.val = 128 * k.val + f.val) :
    stepRows x0 x1 acc (ix2 tb j)
      = acc (ix2 tb j)
        + ((∑ n : Fin 512, geInd k.val (probR (fun i : S512x256.Idx => x0 (ix3 tb (i 0) (i 1))) x1 n f) : ℝ) : EReal) := by
  unfold stepRows
  show rowPayload x0 x1 acc tb (ix2 (0 : Fin 1) j) = _
  unfold rowPayload rowPayloadG
  refine (shapeCast_apply _ Facts₀.shapeCasts_S4096_S1x4096 (ix2 (0 : Fin 1) j) (ix1 j) ?_).trans ?_
  · rw [Shape.rowMajor_val_two, Shape.rowMajor_val_one]
    show j.val = 0 * 4096 + j.val
    omega
  rw [addf_apply]
  have hrm : (S1x4096.rowMajor (ix2 (0 : Fin 1) j)).val = (S4096.rowMajor (ix1 j)).val := by
    rw [Shape.rowMajor_val_two, Shape.rowMajor_val_one]
    show 0 * 4096 + j.val = j.val
    omega
  rw [shapeCast_apply (View.ld acc (accRect tb)) Facts₀.shapeCasts_S1x4096_S4096 (ix1 j) (ix2 (0 : Fin 1) j) hrm,
    shapeCast_apply _ Facts₀.shapeCasts_S1x4096_S4096 (ix1 j) (ix2 (0 : Fin 1) j) hrm]
  refine congrArg₂ (· + ·) ?_ ?_
  · show acc ((accRect tb).idx (ix2 (0 : Fin 1) j)) = _
    refine congrArg acc ?_
    funext a
    apply Fin.ext
    match a with
    | ⟨0, _⟩ => show tb.val + 1 * 0 = tb.val; omega
    | ⟨1, _⟩ => show 0 + 1 * j.val = j.val; omega
  · rw [chunk_eq, weights_eq]
    exact rowCounts_apply _ x1 k f j hj

/-! ## The blocks the pipeline hands the body -/

variable (m : (ℓ : Loc nD τ sig) → Buf (Elt Ideal) ℓ) (ρ : Dev nD → PrngReg)

/-- The printed index maps over the grid: samples `[t / 4, t % 4, 0]`, weights `[0, 0]`, output `[t / 4, 0]`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = t.val / 4 ∧ win0_2.index t (1 : Fin 2) = 0 :=
  (by decide +kernel : ∀ t : Fin grid0.N, _)

/-- The sample block of point `t`: batch rows `16 (t / 4) …`, samples `512 (t % 4) …`. -/
theorem iblk0_apply (c : Dev nD) (t : Fin cfg0.N) (tb : Fin 16) (n : Fin 512) (d : Fin 256) (b : Fin 64) (n' : Fin 2048)
    (hb : b.val = 16 * (t.val / 4) + tb.val) (hn : n'.val = 512 * (t.val % 4) + n.val) :
    iblk m c 0 t (ix3 tb n d) = m ((c : Thread nD τ).loc main_arg0) (ix3 b n' d) := by
  obtain ⟨e0, e1, e2, -⟩ := idx_facts t
  show V m c main_arg0 (((cfg0.win 0).blk t).view.emb (ix3 tb n d)) = _
  rw [V_main_arg0]
  refine congrArg _ ?_
  funext a
  apply Fin.ext
  match a with
  | ⟨0, _⟩ => show win0_0.index t (0 : Fin 3) * 16 + 1 * tb.val = b.val; omega
  | ⟨1, _⟩ => show win0_0.index t (1 : Fin 3) * 512 + 1 * n.val = n'.val; omega
  | ⟨2, _⟩ => show win0_0.index t (2 : Fin 3) * 256 + 1 * d.val = d.val; omega

/-- The weights the region finds: the feature vectors transposed, written by the host before the region. -/
theorem V_weights (c : Dev nD) :
    (V m c main_v1 : S256x128.Idx → EReal)
      = transpose S256x128 [1, 0]
          (shapeCast S128x256 (m ((c : Thread nD τ).loc main_arg1)) Facts₀.shapeCasts_S1x128x256_S128x256)
          Facts₀.transposes_S128x256_S256x128_1_0 := by
  dsimp only [Gen.V, Gen.hostOps0]
  after_results
  rfl

/-- The weight block of any point, at `[d, f]`: component `d` of feature vector `f`. -/
theorem iblk1_apply (c : Dev nD) (t : Fin cfg0.N) (d : Fin 256) (f : Fin 128) :
    iblk m c 1 t (ix2 d f) = m ((c : Thread nD τ).loc main_arg1) (ix3 (0 : Fin 1) f d) := by
  obtain ⟨-, -, -, e3, e4, -⟩ := idx_facts t
  show V m c main_v1 (((cfg0.win 1).blk t).view.emb (ix2 d f)) = _
  have he : ((cfg0.win 1).blk t).view.emb (ix2 d f) = ix2 d f := by
    funext a
    apply Fin.ext
    match a with
    | ⟨0, _⟩ => show win0_1.index t (0 : Fin 2) * 256 + 1 * d.val = d.val; omega
    | ⟨1, _⟩ => show win0_1.index t (1 : Fin 2) * 128 + 1 * f.val = f.val; omega
  rw [he, V_weights]
  refine (transpose_apply [1, 0] _ Facts₀.transposes_S128x256_S256x128_1_0 (ix2 d f) (ix2 f d) ?_).trans ?_
  · intro b
    match b with
    | ⟨0, _⟩ => rfl
    | ⟨1, _⟩ => rfl
  · refine shapeCast_apply _ Facts₀.shapeCasts_S1x128x256_S128x256 (ix2 f d) (ix3 (0 : Fin 1) f d) ?_
    rw [Shape.rowMajor_val_two, Shape.rowMajor_val_three]
    show (0 * 128 + f.val) * 256 + d.val = f.val * 256 + d.val
    omega

/-! ## A point's chunk of a batch -/

/-- Sample `n` of chunk `cc` is sample `512 cc + n` of the batch. -/
def chunkIdx (cc : Fin 4) (n : Fin 512) : Fin 2048 := finProdFinEquiv (cc, n)

theorem chunkIdx_val (cc : Fin 4) (n : Fin 512) : (chunkIdx cc n).val = n.val + 512 * cc.val := rfl

/-- How many samples of chunk `cc` of batch `b` pass test `k` for feature `f`. -/
def chunkCount (X : SX.Idx → EReal) (W : SW.Idx → EReal) (b : Fin 64) (f : Fin 128) (k : ℕ) (cc : Fin 4) : ℝ :=
  ∑ n : Fin 512, geInd k (prob X W b (chunkIdx cc n) f)

/-- The four chunks make up the batch. -/
theorem geCount_chunks (X : SX.Idx → EReal) (W : SW.Idx → EReal) (b : Fin 64) (f : Fin 128) (k : ℕ) :
    geCount X W b f k
      = chunkCount X W b f k 0 + chunkCount X W b f k 1 + chunkCount X W b f k 2 + chunkCount X W b f k 3 := by
  unfold geCount chunkCount chunkIdx
  rw [← Equiv.sum_comp (finProdFinEquiv : Fin 4 × Fin 512 ≃ Fin 2048) (fun n => geInd k (prob X W b n f)),
    Fintype.sum_prod_type, Fin.sum_univ_four]

/-- The probabilities the body computes at point `t` for batch row `tb` are those of batch `16 (t / 4) + tb`, chunk `t % 4`. -/
theorem probR_point (c : Dev nD) (t : Fin cfg0.N) (cc : Fin 4) (hcc : t.val % 4 = cc.val) (tb : Fin 16) (b : Fin 64)
    (hb : b.val = 16 * (t.val / 4) + tb.val) (n : Fin 512) (f : Fin 128) :
    probR (fun i : S512x256.Idx => iblk m c 0 t (ix3 tb (i 0) (i 1))) (iblk m c 1 t) n f
      = prob (m ((c : Thread nD τ).loc main_arg0)) (m ((c : Thread nD τ).loc main_arg1)) b (chunkIdx cc n) f := by
  unfold probR prob score
  refine congrArg (fun s : EReal => (Ideal.logistic s).toReal) (Finset.sum_congr rfl fun d _ => ?_)
  exact congrArg₂ (fun u v : EReal => u * v)
    (iblk0_apply m c t tb n d b (chunkIdx cc n) hb (by rw [chunkIdx_val, hcc]; omega)) (iblk1_apply m c t d f)

/-- Lane `128 k + f` of row `tb` after point `t`: what it held plus the chunk's count. -/
theorem step_point (c : Dev nD) (t : Fin cfg0.N) (cc : Fin 4) (hcc : t.val % 4 = cc.val) (acc : Vec Ideal S16x4096 .f32)
    (tb : Fin 16) (b : Fin 64) (hb : b.val = 16 * (t.val / 4) + tb.val) (k : Fin 32) (f : Fin 128) (j : Fin 4096)
    (hj : j.val = 128 * k.val + f.val) :
    stepRows (iblk m c 0 t) (iblk m c 1 t) acc (ix2 tb j)
      = acc (ix2 tb j)
        + ((chunkCount (m ((c : Thread nD τ).loc main_arg0)) (m ((c : Thread nD τ).loc main_arg1)) b f k.val cc : ℝ) : EReal) := by
  rw [stepRows_apply _ _ _ tb k f j hj]
  unfold chunkCount
  refine congrArg (fun r : ℝ => acc (ix2 tb j) + (r : EReal)) (Finset.sum_congr rfl fun n _ => ?_)
  rw [probR_point m c t cc hcc tb b hb n f]

/-! ## The accumulator along a batch block -/

/-- The reset's zeros. -/
theorem zerosA_apply (y : S16x4096.Idx) : (zerosA (F := Ideal)) y = 0 := by
  show (k0_pay4 (F := Ideal)) y = 0
  unfold k0_pay4
  simp only [shapeCast_self]
  exact Ideal.ofBits_zero_f32

/-- At the last chunk of a batch block, row `tb`, lane `128 k + f`, holds the cumulative count over the whole batch. -/
theorem acc_full (c : Dev nD) (t : Fin cfg0.N) (h3 : t.val % 4 = 3) (tb : Fin 16) (b : Fin 64)
    (hb : b.val = 16 * (t.val / 4) + tb.val) (k : Fin 32) (f : Fin 128) (j : Fin 4096) (hj : j.val = 128 * k.val + f.val) :
    stepRows (iblk m c 0 t) (iblk m c 1 t) (outsAt0 m c (t.val - 1) (Nat.lt_of_le_of_lt (Nat.sub_le _ _) t.isLt)).2 (ix2 tb j)
      = ((geCount (m ((c : Thread nD τ).loc main_arg0)) (m ((c : Thread nD τ).loc main_arg1)) b f k.val : ℝ) : EReal) := by
  have hN : t.val < 16 := lt_of_lt_of_eq t.isLt N_0
  have hlt2 : t.val - 1 < cfg0.N := Nat.lt_of_le_of_lt (Nat.sub_le _ _) t.isLt
  have hlt1 : t.val - 1 - 1 < cfg0.N := Nat.lt_of_le_of_lt (Nat.sub_le _ _) hlt2
  have hlt0 : t.val - 1 - 1 - 1 < cfg0.N := Nat.lt_of_le_of_lt (Nat.sub_le _ _) hlt1
  rw [step_point m c t 3 (by rw [h3]; rfl) _ tb b hb k f j hj]
  rw [sc_B m c ⟨t.val - 1, hlt2⟩ (by show ¬(t.val - 1) % 4 = 0; omega) (by show ¬(t.val - 1) % 4 = 3; omega)]
  rw [step_point m c ⟨t.val - 1, hlt2⟩ 2 (by show (t.val - 1) % 4 = 2; omega) _ tb b
    (by show b.val = 16 * ((t.val - 1) / 4) + tb.val; omega) k f j hj]
  rw [sc_B m c ⟨t.val - 1 - 1, hlt1⟩ (by show ¬(t.val - 1 - 1) % 4 = 0; omega) (by show ¬(t.val - 1 - 1) % 4 = 3; omega)]
  rw [step_point m c ⟨t.val - 1 - 1, hlt1⟩ 1 (by show (t.val - 1 - 1) % 4 = 1; omega) _ tb b
    (by show b.val = 16 * ((t.val - 1 - 1) / 4) + tb.val; omega) k f j hj]
  rw [sc_A m c ⟨t.val - 1 - 1 - 1, hlt0⟩ (by show (t.val - 1 - 1 - 1) % 4 = 0; omega) (by show ¬(t.val - 1 - 1 - 1) % 4 = 3; omega)]
  rw [step_point m c ⟨t.val - 1 - 1 - 1, hlt0⟩ 0 (by show (t.val - 1 - 1 - 1) % 4 = 0; omega) _ tb b
    (by show b.val = 16 * ((t.val - 1 - 1 - 1) / 4) + tb.val; omega) k f j hj]
  rw [zerosA_apply, geCount_chunks, zero_add, ← EReal.coe_add, ← EReal.coe_add, ← EReal.coe_add]

/-! ## What a finishing point writes back, and the array -/

/-- WHAT A FINISHING POINT WRITES BACK is its block of the histogram. -/
theorem flushed_eq (c : Dev nD) (t : Fin cfg0.N) (hf : (cfg0.win 2).flush t = true) :
    (dats m 0 c).flushed 2 t
      = ((cfg0.win 2).blk t).view.read (Elt Ideal)
          (hist (m ((c : Thread nD τ).loc main_arg0)) (m ((c : Thread nD τ).loc main_arg1))) := by
  have h3 : t.val % 4 = 3 := (flush0_2 t).mp hf
  have hN : t.val < 16 := lt_of_lt_of_eq t.isLt N_0
  obtain ⟨-, -, -, -, -, e5, e6⟩ := idx_facts t
  rw [flushed2, out_at_C m c t (by omega) h3]
  funext y
  obtain ⟨tb, j, rfl⟩ : ∃ (tb : Fin 16) (j : Fin 4096), y = ix2 tb j := ⟨y 0, y 1, eq_ix2 y⟩
  have hjlt := j.isLt
  have hb : (16 * (t.val / 4) + tb.val) < 64 := by have := tb.isLt; omega
  have hemb : ((cfg0.win 2).blk t).view.emb (ix2 tb j) = ix2 (⟨16 * (t.val / 4) + tb.val, hb⟩ : Fin 64) j := by
    funext a
    apply Fin.ext
    match a with
    | ⟨0, _⟩ => show win0_2.index t (0 : Fin 2) * 16 + 1 * tb.val = 16 * (t.val / 4) + tb.val; omega
    | ⟨1, _⟩ => show win0_2.index t (1 : Fin 2) * 4096 + 1 * j.val = j.val; omega
  show histBlock (F := Ideal) (stepRows (iblk m c 0 t) (iblk m c 1 t) (outsAt0 m c (t.val - 1) _).2) (ix2 tb j)
    = hist _ _ (((cfg0.win 2).blk t).view.emb (ix2 tb j))
  rw [hemb]
  have hk31 : j.val % 32 < 32 := Nat.mod_lt _ (by norm_num)
  rw [hist_apply _ _ ⟨16 * (t.val / 4) + tb.val, hb⟩ ⟨j.val / 32, by omega⟩ ⟨j.val % 32, hk31⟩ j
    (by show j.val = 32 * (j.val / 32) + j.val % 32; omega)]
  rw [histBlock_apply _ tb ⟨j.val / 32, by omega⟩ ⟨j.val % 32, hk31⟩ j
    ⟨128 * (j.val % 32) + j.val / 32, by omega⟩
    ⟨(128 * (j.val % 32 + 1) + j.val / 32) % 4096, Nat.mod_lt _ (by norm_num)⟩
    (by show j.val = 32 * (j.val / 32) + j.val % 32; omega) rfl
    (by intro hk; show (128 * (j.val % 32 + 1) + j.val / 32) % 4096 = 128 * (j.val % 32 + 1) + j.val / 32
        have hk' : j.val % 32 < 31 := hk
        omega)]
  refine congrArg (Ideal.div · (Ideal.ofBits .f32 0x45000000#32)) ?_
  by_cases hk : j.val % 32 < 31
  · rw [if_pos (show (⟨j.val % 32, hk31⟩ : Fin 32).val < 31 from hk)]
    rw [acc_full m c t h3 tb ⟨16 * (t.val / 4) + tb.val, hb⟩ rfl ⟨j.val % 32, hk31⟩ ⟨j.val / 32, by omega⟩ _ rfl]
    rw [acc_full m c t h3 tb ⟨16 * (t.val / 4) + tb.val, hb⟩ rfl ⟨j.val % 32 + 1, by omega⟩ ⟨j.val / 32, by omega⟩ _
      (by show (128 * (j.val % 32 + 1) + j.val / 32) % 4096 = 128 * (j.val % 32 + 1) + j.val / 32; omega)]
    rw [← EReal.coe_sub]
    exact congrArg _ (geCount_sub _ _ _ _ _ hk)
  · rw [if_neg (show ¬(⟨j.val % 32, hk31⟩ : Fin 32).val < 31 from hk)]
    rw [acc_full m c t h3 tb ⟨16 * (t.val / 4) + tb.val, hb⟩ rfl ⟨j.val % 32, hk31⟩ ⟨j.val / 32, by omega⟩ _ rfl]
    have hk' : j.val % 32 = 31 := by omega
    show ((geCount _ _ _ _ (j.val % 32) : ℝ) : EReal) = ((binCount _ _ _ _ (j.val % 32) : ℝ) : EReal)
    rw [hk']
    exact congrArg _ (geCount_last _ _ _ _)

/-- An index of the array is in point `t`'s block iff each coordinate is in the block's range on its axis. -/
theorem mem_blk (t : Fin cfg0.N) (i : S64x4096.Idx) :
    i ∈ ((cfg0.win 2).blk t).view.set
      ↔ ∀ a : Fin 2, win0_2.index t a * S16x4096.size a ≤ (i a).val ∧ (i a).val < win0_2.index t a * S16x4096.size a + S16x4096.size a := by
  show i ∈ ((View.whole main_v2).slice (win0_2.rect t)).set ↔ _
  rw [View.set_slice_whole, Rect.mem_set_unit]
  exact Iff.rfl

/-- Every row of the array is in the block of the finishing point of its batch block. -/
theorem cover (i : S64x4096.Idx) : ∃ t : Fin cfg0.N, (cfg0.win 2).flush t = true ∧ i ∈ ((cfg0.win 2).blk t).view.set := by
  have hi0 : (i 0).val < 64 := (i 0).isLt
  have hi1 : (i 1).val < 4096 := (i 1).isLt
  have hlt : 4 * ((i 0).val / 16) + 3 < cfg0.N := by have hN : cfg0.N = 16 := N_0; rw [hN]; omega
  refine ⟨⟨4 * ((i 0).val / 16) + 3, hlt⟩, (flush0_2 _).mpr (by show (4 * ((i 0).val / 16) + 3) % 4 = 3; omega), ?_⟩
  rw [mem_blk]
  obtain ⟨-, -, -, -, -, e5, e6⟩ := idx_facts ⟨4 * ((i 0).val / 16) + 3, hlt⟩
  have e5' : win0_2.index ⟨4 * ((i 0).val / 16) + 3, hlt⟩ (0 : Fin 2) = (4 * ((i 0).val / 16) + 3) / 4 := e5
  intro a
  match a with
  | ⟨0, _⟩ =>
    show win0_2.index ⟨4 * ((i 0).val / 16) + 3, hlt⟩ (0 : Fin 2) * 16 ≤ (i 0).val
      ∧ (i 0).val < win0_2.index ⟨4 * ((i 0).val / 16) + 3, hlt⟩ (0 : Fin 2) * 16 + 16
    omega
  | ⟨1, _⟩ =>
    show win0_2.index ⟨4 * ((i 0).val / 16) + 3, hlt⟩ (1 : Fin 2) * 4096 ≤ (i 1).val
      ∧ (i 1).val < win0_2.index ⟨4 * ((i 0).val / 16) + 3, hlt⟩ (1 : Fin 2) * 4096 + 4096
    omega

/-- THE ARRAY after the run is the histogram of the arguments. -/
theorem final (c : Dev nD) :
    (dats m 0 c).arrAt 2 cfg0.N = hist (m ((c : Thread nD τ).loc main_arg0)) (m ((c : Thread nD τ).loc main_arg1)) :=
  (dats m 0 c).arrAt_eq_of_cover 2 _ (fun t hf => flushed_eq m c t hf) cover

/-- The kernel's run: its result array ends at the histogram of its arguments, which are unchanged. -/
theorem run : θ_run defs (onTc (τ := τ) (main (F := Ideal))) ⟨m, fun _ => 0, ρ⟩ fun r => ∀ c : Dev nD,
      r.2.mem ((c : Thread nD τ).loc main_v2) = hist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.HistValue

end
-- ==== Proof.LibScatterCount.lean ====
/-
  An accumulating scatter that counts.

  The scatter here adds every update `u[b, n, f]` into the operand element `[i₀, i₁, i₂]` named by the three
  integers `idx[b, n, f, 0..2]` (all three operand axes are addressed, no window). Its value at an operand
  element is therefore that element plus the sum of the updates whose three integers are the element's coordinates.
  When the first two integers are the update's own `b` and `f`, only the updates `[i₀, n, i₁]` can land on
  `[i₀, i₁, i₂]`, and the sum runs over `n` alone.
-/
import Idealize.ShloMosaic.PureOps.Ideal
import Idealize.ShloMosaic.Lib.ValueIdx

noncomputable section

namespace Cert.Hist

open Idealize.ShloMosaic Idealize.ShloMosaic.ValueIdx

/-- A rank-3 index is its three coordinates … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

abbrev SOp : Shape := ⟨3, ![64, 128, 32]⟩
abbrev SIx : Shape := ⟨4, ![64, 2048, 128, 3]⟩
abbrev SUp : Shape := ⟨3, ![64, 2048, 128]⟩

variable (wf : ScatterDims.WF SOp SIx SUp [] [0, 1, 2] [0, 1, 2] 3)

/-- The scatter's dimension numbers: every operand axis addressed by the index vector (its axis 3), no window. -/
abbrev histDims : ScatterDims SOp SIx SUp := ⟨[], [0, 1, 2], [0, 1, 2], 3, wf⟩

/-- The start on operand axis `a` for update `j`: component `a` of the index vector at `j`. -/
theorem start_eq (idx : IVec SIx 32) (j : SUp.Idx) (a : Fin 3) :
    (histDims wf).start j idx a = (idx (ix4 (j 0) (j 1) (j 2) a)).toInt := by
  fin_cases a
  all_goals
    unfold ScatterDims.start
    rw [dif_pos ((by decide : ∀ a : Fin 3, a ∈ ([0, 1, 2] : List (Fin 3))) _)]
    refine congrArg (fun v => (idx v).toInt) ?_
    funext b
    fin_cases b <;> rfl

/-- No window: the window coordinate is 0 on every operand axis. -/
theorem window_eq (j : SUp.Idx) (a : Fin 3) : (histDims wf).window j a = 0 := by
  unfold ScatterDims.window
  exact dif_neg ((by decide : ∀ a : Fin 3, a ∉ SOp.kept ([0, 1, 2] : List (Fin 3))) a)

/-- Update `j` lands on operand element `i` exactly when its three integers are `i`'s coordinates. -/
theorem resultIdx_eq_some_iff (idx : IVec SIx 32) (j : SUp.Idx) (i : SOp.Idx) :
    (histDims wf).resultIdx? j idx = some i
      ↔ ∀ a : Fin 3, (idx (ix4 (j 0) (j 1) (j 2) a)).toInt = ((i a).val : ℤ) := by
  unfold ScatterDims.resultIdx?
  simp only [start_eq, window_eq, Nat.cast_zero, add_zero]
  split_ifs with h
  · rw [Option.some.injEq]
    constructor
    · intro e a
      have := congrArg (fun v : SOp.Idx => (v a).val) e
      simp only at this
      have h0 := (h a).1
      omega
    · intro e
      funext a
      apply Fin.ext
      simp only [e a, Int.toNat_natCast]
  · constructor
    · intro e; cases e
    · intro e
      exfalso
      apply h
      intro a
      rw [e a]
      exact ⟨Int.natCast_nonneg _, by exact_mod_cast (i a).isLt⟩

/-- The accumulating scatter at an operand element: the element plus the updates whose integers name it. -/
theorem hostScatterAdd_apply (x : SOp.Idx → EReal) (idx : IVec SIx 32) (upd : SUp.Idx → EReal) (i : SOp.Idx) :
    Ideal.hostScatterAdd (histDims wf) x idx upd i
      = x i + ∑ j ∈ Finset.univ.filter
          (fun j : SUp.Idx => ∀ a : Fin 3, (idx (ix4 (j 0) (j 1) (j 2) a)).toInt = ((i a).val : ℤ)), upd j := by
  unfold Ideal.hostScatterAdd
  refine congrArg (x i + ·) (Finset.sum_congr ?_ fun _ _ => rfl)
  exact Finset.filter_congr fun j _ => resultIdx_eq_some_iff wf idx j i

/-- When the first two integers of update `[b, n, f]` are `b` and `f` and the third is its bin number, the
    scatter of a constant `u` over `x` holds at `[b₀, f₀, k₀]` the element plus one `u` per `n` whose update
    `[b₀, n, f₀]` has bin `k₀`. -/
theorem hostScatterAdd_bins (x : SOp.Idx → EReal) (idx : IVec SIx 32) (u : EReal) (bin : SUp.Idx → ℕ)
    (h0 : ∀ j : SUp.Idx, (idx (ix4 (j 0) (j 1) (j 2) 0)).toInt = ((j 0).val : ℤ))
    (h1 : ∀ j : SUp.Idx, (idx (ix4 (j 0) (j 1) (j 2) 1)).toInt = ((j 2).val : ℤ))
    (h2 : ∀ j : SUp.Idx, (idx (ix4 (j 0) (j 1) (j 2) 2)).toInt = (bin j : ℤ))
    (b0 : Fin 64) (f0 : Fin 128) (k0 : Fin 32) :
    Ideal.hostScatterAdd (histDims wf) x idx (fun _ => u) (ix3 b0 f0 k0)
      = x (ix3 b0 f0 k0) + ∑ n : Fin 2048, if bin (ix3 b0 n f0) = k0.val then u else 0 := by
  rw [hostScatterAdd_apply]
  refine congrArg (x (ix3 b0 f0 k0) + ·) ?_
  have hP : ∀ j : SUp.Idx, (∀ a : Fin 3, (idx (ix4 (j 0) (j 1) (j 2) a)).toInt = (((ix3 b0 f0 k0 : SOp.Idx) a).val : ℤ))
      ↔ ((j 0).val = b0.val ∧ (j 2).val = f0.val ∧ bin j = k0.val) := by
    intro j
    constructor
    · intro h
      have e0 := h 0; have e1 := h 1; have e2 := h 2
      rw [h0] at e0; rw [h1] at e1; rw [h2] at e2
      exact ⟨by exact_mod_cast e0, by exact_mod_cast e1, by exact_mod_cast e2⟩
    · rintro ⟨e0, e1, e2⟩ a
      fin_cases a
      · show (idx (ix4 (j 0) (j 1) (j 2) 0)).toInt = ((b0.val : ℕ) : ℤ); rw [h0, e0]
      · show (idx (ix4 (j 0) (j 1) (j 2) 1)).toInt = ((f0.val : ℕ) : ℤ); rw [h1, e1]
      · show (idx (ix4 (j 0) (j 1) (j 2) 2)).toInt = ((k0.val : ℕ) : ℤ); rw [h2, e2]
  rw [Finset.filter_congr (fun j _ => hP j), Finset.sum_filter, sum_idx3]
  rw [Finset.sum_eq_single b0]
  · rw [Finset.sum_comm, Finset.sum_eq_single f0]
    · refine Finset.sum_congr rfl fun n _ => ?_
      by_cases h : bin (ix3 b0 n f0) = k0.val
      · rw [if_pos h]; exact if_pos ⟨rfl, rfl, h⟩
      · rw [if_neg h]; exact if_neg fun hh => h hh.2.2
    · intro f _ hf
      refine Finset.sum_eq_zero fun n _ => if_neg ?_
      rintro ⟨_, e, _⟩; exact hf (Fin.ext e)
    · intro h; exact absurd (Finset.mem_univ _) h
  · intro b _ hb
    refine Finset.sum_eq_zero fun n _ => Finset.sum_eq_zero fun f _ => if_neg ?_
    rintro ⟨e, _, _⟩; exact hb (Fin.ext e)
  · intro h; exact absurd (Finset.mem_univ _) h

end Cert.Hist

end
-- ==== Proof.RefHist.lean ====
/-
  The reference computes the histogram.

  The reference multiplies every sample by every feature vector, takes `1 / (1 + exp (−score))` — the logistic —,
  scales by 32, truncates to an integer, clips it to `[0, 31]`, and adds a one into entry `[b, f, bin]` of a zero
  array for every sample `[b, n, f]`; then divides by 2048 and flattens `[b, f, k]` to `[b, 32 f + k]`. For a
  probability in `[0, 1]` the truncated and clipped integer is the bin `min ⌊32 p⌋ 31`, so entry `[b, f, k]` counts the
  samples of batch `b` whose probability for feature `f` is in bin `k`.
-/
import proofs.«100293_j24893630448192_2_alg».proof.Proof.Gen.ReferenceIdeal.Read
import proofs.«100293_j24893630448192_2_alg».proof.Proof.HistSpec
import proofs.«100293_j24893630448192_2_alg».proof.Proof.LibScatterCount
import Idealize.ShloMosaic.Lib.IdealHost

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.SL.Sem Idealize.ShloMosaic.ValueIdx Idealize.ShloMosaic.Pipeline Cert.Hist

variable (x0 : (⟨S64x2048x256, .f32⟩ : BufTy).Contents (Elt Ideal)) (x1 : (⟨S1x128x256, .f32⟩ : BufTy).Contents (Elt Ideal))

/-- The reference's product is the score. -/
theorem score_eq (b : Fin 64) (n : Fin 2048) (f : Fin 128) :
    val_main_v1 (F := Ideal) x0 x1 (ix3 b n f) = score x0 x1 b n f := by
  rw [val_main_v1_apply]
  unfold score
  refine Finset.sum_congr rfl fun d _ => ?_
  rw [val_main_v0_apply]
  have e1 : lidx_main_v1 (ix3 b n f) d = ix3 b n d := by
    funext a
    match a with
    | ⟨0, _⟩ => rfl
    | ⟨1, _⟩ => rfl
    | ⟨2, _⟩ => rfl
  have e2 : idx_main_v0 (ridx_main_v1 (ix3 b n f) d) = ix3 (0 : Fin 1) f d := by
    funext a
    apply Fin.ext
    match a with
    | ⟨0, _⟩ => rfl
    | ⟨1, _⟩ => show (f.val * 256 + d.val) / 256 % 128 = f.val; have := f.isLt; have := d.isLt; omega
    | ⟨2, _⟩ => show (f.val * 256 + d.val) % 256 = d.val; have := d.isLt; omega
  rw [e1, e2]

/-- `1 / (1 + exp (−score))` is the probability. -/
theorem prob_eq (b : Fin 64) (n : Fin 2048) (f : Fin 128) :
    val_main_v7 (F := Ideal) x0 x1 (ix3 b n f) = ((prob x0 x1 b n f : ℝ) : EReal) := by
  simp only [val_main_v7_apply, val_main_v6_apply, val_main_cst_0_apply, val_main_v5_apply, val_main_v4_apply,
    val_main_cst_apply, val_main_v3_apply, val_main_v2_apply, score_eq]
  show Ideal.div (Ideal.ofBits .f32 0x3F800000#32) (Ideal.ofBits .f32 0x3F800000#32 + Ideal.exp (-(score x0 x1 b n f))) = _
  rw [Ideal.ofBits_one_f32, ← (prob_spec x0 x1 b n f).2.2]
  rfl

/-- Scaled, truncated, clipped (and passed through the wrap of negative indices): the bin. -/
theorem bin_eq (b : Fin 64) (n : Fin 2048) (f : Fin 128) :
    (val_main_v31 (F := Ideal) x0 x1 (ix3 b n f)).toInt = ((binOf (prob x0 x1 b n f) : ℕ) : ℤ) := by
  simp only [val_main_v31_apply, val_main_v28_apply, val_main_v30_apply, val_main_v11_apply, val_main_call0_v4_apply,
    val_main_call0_v3_apply, val_main_c_2_apply, val_main_call0_v2_apply, val_main_call0_v1_apply, val_main_call0_v0_apply,
    val_main_c_apply, val_main_v27_apply, val_main_c_8_apply, val_main_v29_apply, val_main_c_9_apply, val_main_v10_apply,
    val_main_v9_apply, val_main_v8_apply, val_main_cst_1_apply, prob_eq]
  have hZ : FloatOps.fptosi 32 (FloatOps.mulf (((prob x0 x1 b n f : ℝ) : EReal) : Ideal .f32)
      (FloatOps.ofBits (F := Ideal) .f32 0x42000000#32)) = BitVec.ofNat 32 ⌊32 * prob x0 x1 b n f⌋₊ := by
    show Ideal.fptosi 32 (((prob x0 x1 b n f : ℝ) : EReal) * Ideal.ofBits .f32 0x42000000#32) = _
    rw [ofBits_32]
    exact fptosi_scaled _ (prob_spec x0 x1 b n f).1 (prob_spec x0 x1 b n f).2.1
  rw [hZ]
  have hle : ⌊32 * prob x0 x1 b n f⌋₊ < 33 := by
    have : ⌊32 * prob x0 x1 b n f⌋₊ ≤ 32 := Nat.floor_le_of_le (by have := (prob_spec x0 x1 b n f).2.1; push_cast; linarith)
    omega
  exact clip_wrap ⟨_, hle⟩

/-- An index below the axis's extent passes the wrap of negative indices unchanged. -/
theorem wrap64 : ∀ b : Fin 64,
    (Scalar.select (IntOp.cmpi .slt (BitVec.ofNat 32 b.val) 0#32) (IntOp.addi (BitVec.ofNat 32 b.val) 64#32)
      (BitVec.ofNat 32 b.val)).toInt = (b.val : ℤ) := by decide
theorem wrap128 : ∀ f : Fin 128,
    (Scalar.select (IntOp.cmpi .slt (BitVec.ofNat 32 f.val) 0#32) (IntOp.addi (BitVec.ofNat 32 f.val) 128#32)
      (BitVec.ofNat 32 f.val)).toInt = (f.val : ℤ) := by decide

/-- The index vector of sample `[b, n, f]`: first `b`, -/
theorem idx0 (j : S64x2048x128.Idx) :
    (val_main_v37 (F := Ideal) x0 x1 (ix4 (j 0) (j 1) (j 2) 0)).toInt = ((j 0).val : ℤ) := by
  unfold val_main_v37
  refine (congrArg BitVec.toInt (concatenate_apply_piece 3 _ _ (ix4 (j 0) (j 1) (j 2) (0 : Fin 3)) 0 (by exact Nat.succ_pos _) S64x2048x128x1 _ rfl rfl 0 rfl
    (ix4 (j 0) (j 1) (j 2) (0 : Fin 1)) ?_ ?_)).trans ?_
  · intro a ha
    match a with
    | ⟨0, _⟩ => rfl
    | ⟨1, _⟩ => rfl
    | ⟨2, _⟩ => rfl
    | ⟨3, _⟩ => exact absurd rfl ha
  · show 0 + 0 = 0; rfl
  · simp only [val_main_v34_apply, val_main_v32_apply, val_main_v21_apply, val_main_v18_apply, val_main_v20_apply,
      val_main_v13_apply, val_main_v12_apply, val_main_v17_apply, val_main_c_4_apply, val_main_v19_apply, val_main_c_5_apply]
    exact wrap64 (j 0)

/-- then `f`, -/
theorem idx1 (j : S64x2048x128.Idx) :
    (val_main_v37 (F := Ideal) x0 x1 (ix4 (j 0) (j 1) (j 2) 1)).toInt = ((j 2).val : ℤ) := by
  unfold val_main_v37
  refine (congrArg BitVec.toInt (concatenate_apply_piece 3 _ _ (ix4 (j 0) (j 1) (j 2) (1 : Fin 3)) 1 (by exact Nat.lt_succ_of_lt (Nat.lt_succ_self _)) S64x2048x128x1 _ rfl rfl 1 rfl
    (ix4 (j 0) (j 1) (j 2) (0 : Fin 1)) ?_ ?_)).trans ?_
  · intro a ha
    match a with
    | ⟨0, _⟩ => rfl
    | ⟨1, _⟩ => rfl
    | ⟨2, _⟩ => rfl
    | ⟨3, _⟩ => exact absurd rfl ha
  · show 1 + 0 = 1; rfl
  · simp only [val_main_v35_apply, val_main_v33_apply, val_main_v26_apply, val_main_v23_apply, val_main_v25_apply,
      val_main_v15_apply, val_main_v14_apply, val_main_v22_apply, val_main_c_6_apply, val_main_v24_apply, val_main_c_7_apply]
    exact wrap128 (j 2)

/-- then its bin. -/
theorem idx2 (j : S64x2048x128.Idx) :
    (val_main_v37 (F := Ideal) x0 x1 (ix4 (j 0) (j 1) (j 2) 2)).toInt
      = ((binOf (prob x0 x1 (j 0) (j 1) (j 2)) : ℕ) : ℤ) := by
  unfold val_main_v37
  refine (congrArg BitVec.toInt (concatenate_apply_piece 3 _ _ (ix4 (j 0) (j 1) (j 2) (2 : Fin 3)) 2 (by exact Nat.lt_succ_self _) S64x2048x128x1 _ rfl rfl 2 rfl
    (ix4 (j 0) (j 1) (j 2) (0 : Fin 1)) ?_ ?_)).trans ?_
  · intro a ha
    match a with
    | ⟨0, _⟩ => rfl
    | ⟨1, _⟩ => rfl
    | ⟨2, _⟩ => rfl
    | ⟨3, _⟩ => exact absurd rfl ha
  · show 2 + 0 = 2; rfl
  · rw [val_main_v36_apply]
    have e : idx_main_v36 (ix4 (j 0) (j 1) (j 2) (0 : Fin 1)) = ix3 (j 0) (j 1) (j 2) := by
      funext a
      match a with
      | ⟨0, _⟩ => rfl
      | ⟨1, _⟩ => rfl
      | ⟨2, _⟩ => rfl
    exact (congrArg (fun v => (val_main_v31 (F := Ideal) x0 x1 v).toInt) e).trans (bin_eq x0 x1 (j 0) (j 1) (j 2))

/-- The reference's result is the histogram. -/
theorem ref_eq_hist : val_main_v42 (F := Ideal) x0 x1 = hist x0 x1 := by
  funext i
  obtain ⟨b, j, rfl⟩ : ∃ (b : Fin 64) (j : Fin 4096), i = ix2 b j := ⟨i 0, i 1, eq_ix2 i⟩
  have hjlt := j.isLt
  rw [hist_apply x0 x1 b ⟨j.val / 32, by omega⟩ ⟨j.val % 32, Nat.mod_lt _ (by norm_num)⟩ j
    (by show j.val = 32 * (j.val / 32) + j.val % 32; omega)]
  rw [val_main_v42_apply, val_main_v41_apply, val_main_v40_apply, val_main_cst_11_apply]
  have e : idx_main_v42 (ix2 b j) = ix3 b (⟨j.val / 32, by omega⟩ : Fin 128) (⟨j.val % 32, Nat.mod_lt _ (by norm_num)⟩ : Fin 32) := by
    funext a
    apply Fin.ext
    match a with
    | ⟨0, _⟩ => show (b.val * 4096 + j.val) / 4096 = b.val; omega
    | ⟨1, _⟩ => show (b.val * 4096 + j.val) / 32 % 128 = j.val / 32; omega
    | ⟨2, _⟩ => show (b.val * 4096 + j.val) % 32 = j.val % 32; omega
  rw [e]
  show Ideal.div (val_main_v39 (F := Ideal) x0 x1 (ix3 b _ _)) (Ideal.ofBits .f32 0x45000000#32) = _
  refine congrArg (Ideal.div · (Ideal.ofBits .f32 0x45000000#32)) ?_
  have hu : val_main_v38 (F := Ideal) = fun _ => (1 : EReal) := by
    funext i
    rw [val_main_v38_apply, val_main_cst_10_apply]
    exact Ideal.ofBits_one_f32
  unfold val_main_v39
  rw [hu]
  refine (hostScatterAdd_bins Facts₀.scatter_S64x128x32_S64x2048x128x3_S64x2048x128_n_012_012_3_wf (val_main_v16 (F := Ideal))
    (val_main_v37 (F := Ideal) x0 x1) 1 (fun j => binOf (prob x0 x1 (j 0) (j 1) (j 2))) (idx0 x0 x1) (idx1 x0 x1) (idx2 x0 x1)
    b ⟨j.val / 32, by omega⟩ ⟨j.val % 32, Nat.mod_lt _ (by norm_num)⟩).trans ?_
  rw [val_main_v16_apply, val_main_cst_3_apply]
  show Ideal.ofBits .f32 0x00000000#32 + _ = _
  rw [Ideal.ofBits_zero_f32, zero_add]
  unfold binCount
  rw [coe_sum]
  refine Finset.sum_congr rfl fun n _ => ?_
  unfold binInd
  show (if binOf (prob x0 x1 b n _) = j.val % 32 then (1 : EReal) else 0) = _
  split_ifs <;> simp

end Cert.ReferenceIdeal.RefValue

end
-- ==== Proof.lean ====
/-
  A histogram of sigmoid projections, computed two ways.

  Both programs take samples `X : f32[64, 2048, 256]` and feature vectors `I : f32[1, 128, 256]`, form the scores
  `X[b, n, ·] · I[0, f, ·]`, pass them through the logistic function, and return, for every batch `b` and feature `f`,
  the histogram of the 2048 probabilities over 32 uniform bins, divided by 2048, at `[b, 32 f + k]`.

  The reference finds each sample's bin `min ⌊32 p⌋ 31` and adds a one at `[b, f, bin]` (an accumulating scatter).
  The kernel never computes a bin: for each of the 32 thresholds `k / 32` it counts the samples with `p ≥ k / 32` —
  the tests laid side by side and summed by a product with a row of ones, 512 samples at a time, accumulated over the
  four chunks of a batch block — and at the last chunk takes the differences of consecutive counts (the last count
  as it is). The two agree because a probability lies in `[0, 1]`: there `p` is in bin `k < 31` exactly when it passes
  test `k` and fails test `k + 1`, and in bin 31 exactly when it passes test 31 (Proof/Binning.lean). The thresholds are
  dyadic, the logistic is one function on both sides, and all sums are exact, so the equality holds at every input,
  finite or not.

  Proof/HistSpec.lean states the histogram; Proof/RefHist.lean shows the reference's run ends at it
  (Proof/LibScatterCount.lean reads the scatter); Proof/LibRowCount.lean, Proof/LibHistBlock.lean, Proof/StepRows.lean and
  Proof/KernelHist.lean show the kernel's does. The three frames are the generated ones; the idealization's ledger of
  rewrites is empty, so the claim that it preserves the kernel is `True` as stated.
-/
import proofs.«100293_j24893630448192_2_alg».proof.Defs
import proofs.«100293_j24893630448192_2_alg».proof.Proof.Gen.Kernel
import proofs.«100293_j24893630448192_2_alg».proof.Proof.Gen.Kernel.Skeleton
import proofs.«100293_j24893630448192_2_alg».proof.Proof.Gen.Kernel.Launch
import proofs.«100293_j24893630448192_2_alg».proof.Proof.Gen.Kernel.Points
import proofs.«100293_j24893630448192_2_alg».proof.Proof.Gen.Kernel.Frame
import proofs.«100293_j24893630448192_2_alg».proof.Proof.Gen.KernelIdeal
import proofs.«100293_j24893630448192_2_alg».proof.Proof.Gen.KernelIdeal.Skeleton
import proofs.«100293_j24893630448192_2_alg».proof.Proof.Gen.KernelIdeal.Launch
import proofs.«100293_j24893630448192_2_alg».proof.Proof.Gen.KernelIdeal.Points
import proofs.«100293_j24893630448192_2_alg».proof.Proof.Gen.KernelIdeal.Frame
import proofs.«100293_j24893630448192_2_alg».proof.Proof.Gen.ReferenceIdeal
import proofs.«100293_j24893630448192_2_alg».proof.Proof.Gen.KernelIdeal.Value
import proofs.«100293_j24893630448192_2_alg».proof.Proof.Gen.ReferenceIdeal.Run
import proofs.«100293_j24893630448192_2_alg».proof.Proof.Gen.ReferenceIdeal.Read
import proofs.«100293_j24893630448192_2_alg».proof.Proof.Gen.Pre_finite_inputs
import proofs.«100293_j24893630448192_2_alg».proof.Proof.KernelHist
import proofs.«100293_j24893630448192_2_alg».proof.Proof.RefHist
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the histogram of the arguments, which agree. -/
theorem algebraic : Cert.algebraic_KernelIdeal_ReferenceIdeal := by
  intro m ρ m' ρ' _ hagree
  refine ⟨fun c => Cert.Hist.hist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HistValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v42_eq, Cert.ReferenceIdeal.RefValue.ref_eq_hist, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
